-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x2 : Shape := ⟨2, ![16777216, 2]⟩
abbrev S16777216 : Shape := ⟨1, ![16777216]⟩
abbrev S_ : Shape := ⟨0, ![]⟩

class Facts : Prop where
  bcast_S_S16777216x2 : S_.BroadcastsInDim S16777216x2 (![] : Fin 0 → Fin S16777216x2.rank)
  reducesTo_S16777216x2_S_d0_1 : S16777216x2.ReducesTo [0, 1] S_
  h_S_ : 0 < S_.numel
  bcast_S_S16777216 : S_.BroadcastsInDim S16777216 (![] : Fin 0 → Fin S16777216.rank)
  reducesTo_S16777216_S_d0 : S16777216.ReducesTo [0] S_

variable [Facts]

def fn {F : FTy → Type} [FloatOps F] (main_arg0 : FVec F S16777216x2 .f32) (main_arg1 : FVec F S16777216x2 .f32) (main_arg2 : FVec F S16777216 .f32) : IVec S_ 1 :=
  let main_v0 : FVec F S16777216x2 .f32 := Host.absf main_arg0
  let main_cst : FVec F S_ .f32 := constant S_ .f32 0x7F800000#32
  let main_v1 : FVec F S16777216x2 .f32 := broadcastInDim S16777216x2 ![] bcast_S_S16777216x2 main_cst
  let main_v2 : IVec S16777216x2 1 := cmpf .olt main_v0 main_v1
  let main_c : IVec S_ 1 := constantI S_ 1 1#1
  let main_v3 : IVec S_ 1 := (fun x v => Host.reduce IntOp.andi x v reducesTo_S16777216x2_S_d0_1 h_S_) main_v2 main_c
  let main_v4 : FVec F S16777216x2 .f32 := Host.absf main_arg1
  let main_cst_0 : FVec F S_ .f32 := constant S_ .f32 0x7F800000#32
  let main_v5 : FVec F S16777216x2 .f32 := broadcastInDim S16777216x2 ![] bcast_S_S16777216x2 main_cst_0
  let main_v6 : IVec S16777216x2 1 := cmpf .olt main_v4 main_v5
  let main_c_1 : IVec S_ 1 := constantI S_ 1 1#1
  let main_v7 : IVec S_ 1 := (fun x v => Host.reduce IntOp.andi x v reducesTo_S16777216x2_S_d0_1 h_S_) main_v6 main_c_1
  let main_v8 : IVec S_ 1 := andi main_v3 main_v7
  let main_v9 : FVec F S16777216 .f32 := Host.absf main_arg2
  let main_cst_2 : FVec F S_ .f32 := constant S_ .f32 0x7F800000#32
  let main_v10 : FVec F S16777216 .f32 := broadcastInDim S16777216 ![] bcast_S_S16777216 main_cst_2
  let main_v11 : IVec S16777216 1 := cmpf .olt main_v9 main_v10
  let main_c_3 : IVec S_ 1 := constantI S_ 1 1#1
  let main_v12 : IVec S_ 1 := (fun x v => Host.reduce IntOp.andi x v reducesTo_S16777216_S_d0 h_S_) main_v11 main_c_3
  let main_v13 : IVec S_ 1 := andi main_v8 main_v12
  main_v13
-- ==== Kernel.lean ====
abbrev S16777216x2 : Shape := ⟨2, ![16777216, 2]⟩
abbrev S16777216 : Shape := ⟨1, ![16777216]⟩
abbrev S2x3x4 : Shape := ⟨3, ![2, 3, 4]⟩
abbrev S8192x2 : Shape := ⟨2, ![8192, 2]⟩
abbrev S8192 : Shape := ⟨1, ![8192]⟩
abbrev S1x3x4 : Shape := ⟨3, ![1, 3, 4]⟩
abbrev S3x4 : Shape := ⟨2, ![3, 4]⟩
abbrev S1024x2 : Shape := ⟨2, ![1024, 2]⟩
abbrev S1024 : Shape := ⟨1, ![1024]⟩
abbrev S1024x1 : Shape := ⟨2, ![1024, 1]⟩
abbrev S1x1024 : Shape := ⟨2, ![1, 1024]⟩
abbrev S1 : Shape := ⟨1, ![1]⟩
abbrev S1x1 : Shape := ⟨2, ![1, 1]⟩
abbrev S4 : Shape := ⟨1, ![4]⟩
abbrev S1x4 : Shape := ⟨2, ![1, 4]⟩
abbrev S_ : Shape := ⟨0, ![]⟩

abbrev nBuf : Space → Nat
  | .hbm => 36
  | .vmem => 9
  | .smem => 0
  | _ => 0

abbrev bufTy : (tb : Table) → Fin (tcTables nBuf tb) → BufTy
  | .hbm, ⟨0, _⟩ => ⟨S16777216x2, .f32⟩
  | .hbm, ⟨1, _⟩ => ⟨S16777216x2, .f32⟩
  | .hbm, ⟨2, _⟩ => ⟨S16777216, .f32⟩
  | .hbm, ⟨3, _⟩ => ⟨S2x3x4, .f32⟩
  | .hbm, ⟨4, _⟩ => ⟨S_, .f32⟩
  | .hbm, ⟨5, _⟩ => ⟨S3x4, .f32⟩
  | .hbm, ⟨6, _⟩ => ⟨S1x4, .f32⟩
  | .hbm, ⟨7, _⟩ => ⟨S4, .f32⟩
  | .hbm, ⟨8, _⟩ => ⟨S1x4, .f32⟩
  | .hbm, ⟨9, _⟩ => ⟨S4, .f32⟩
  | .hbm, ⟨10, _⟩ => ⟨S1x4, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S_, .f32⟩
  | .hbm, ⟨20, _⟩ => ⟨S4, .f32⟩
  | .hbm, ⟨21, _⟩ => ⟨S4, .f32⟩
  | .hbm, ⟨22, _⟩ => ⟨S4, .f32⟩
  | .hbm, ⟨23, _⟩ => ⟨S_, .f32⟩
  | .hbm, ⟨24, _⟩ => ⟨S4, .f32⟩
  | .hbm, ⟨25, _⟩ => ⟨S4, .i1⟩
  | .hbm, ⟨26, _⟩ => ⟨S_, .f32⟩
  | .hbm, ⟨27, _⟩ => ⟨S4, .f32⟩
  | .hbm, ⟨28, _⟩ => ⟨S4, .f32⟩
  | .hbm, ⟨29, _⟩ => ⟨S4, .f32⟩
  | .hbm, ⟨30, _⟩ => ⟨S_, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S_, .f32⟩
  | .hbm, ⟨35, _⟩ => ⟨S_, .f32⟩
  | .local _ .vmem, ⟨0, _⟩ => ⟨S8192x2, .f32⟩
  | .local _ .vmem, ⟨1, _⟩ => ⟨S8192x2, .f32⟩
  | .local _ .vmem, ⟨2, _⟩ => ⟨S8192x2, .f32⟩
  | .local _ .vmem, ⟨3, _⟩ => ⟨S8192x2, .f32⟩
  | .local _ .vmem, ⟨4, _⟩ => ⟨S8192, .f32⟩
  | .local _ .vmem, ⟨5, _⟩ => ⟨S8192, .f32⟩
  | .local _ .vmem, ⟨6, _⟩ => ⟨S1x3x4, .f32⟩
  | .local _ .vmem, ⟨7, _⟩ => ⟨S1x3x4, .f32⟩
  | .local _ .vmem, ⟨8, _⟩ => ⟨S3x4, .f32⟩
  | _, _ => ⟨S16777216x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_call0_v0 : Ref sig .tc := ⟨.hbm, 31, rfl⟩
abbrev main_call0_v1 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 1024], ![false, false]⟩

@[reducible] def k0_t1_loop : Scf.Loop 32 :=
  let c0_i32_1 : BitVec 32 := 0#32
  let c8_i32 : BitVec 32 := 8#32
  let v4 : BitVec 32 := Scalar.addi c0_i32_1 c8_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c1024_i32 : BitVec 32 := 1024#32
  let v14 : BitVec 32 := Scalar.muli arg7 c1024_i32
  v14
def k0_off1 (k0_t1 : Fin k0_t1_loop.trips) : Fin 2 → Nat :=
  let c0_i32_1 : BitVec 32 := 0#32
  let c1_i32 : BitVec 32 := 1#32
  let arg7 : BitVec 32 := Scf.iv c0_i32_1 c1_i32 k0_t1
  let c1024_i32 : BitVec 32 := 1024#32
  let v14 : BitVec 32 := Scalar.muli arg7 c1024_i32
  let v15 : BitVec 32 := v14
  let v16 : Index := Scalar.indexCast v15
  let c0_7 : Index := 0#32
  ![v16.toNat, 0]
def k0_off2 (k0_t1 : Fin k0_t1_loop.trips) : Fin 1 → Nat :=
  let c0_i32_1 : BitVec 32 := 0#32
  let c1_i32 : BitVec 32 := 1#32
  let arg7 : BitVec 32 := Scf.iv c0_i32_1 c1_i32 k0_t1
  let c1024_i32 : BitVec 32 := 1024#32
  let v14 : BitVec 32 := Scalar.muli arg7 c1024_i32
  let v15 : BitVec 32 := v14
  let v20 : Index := Scalar.indexCast v15
  ![v20.toNat]
def k0_cond2 (i : grid0.Coords) : BitVec 1 :=
  let arg1 : BitVec 32 := BitVec.ofNat 32 (i 1).val
  let c1023_i32 : BitVec 32 := 1023#32
  let v11 : BitVec 1 := Scalar.cmpi .eq arg1 c1023_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 1 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let v1 : BitVec 32 := Scalar.addi v0 arg1
  let c0_i32 : BitVec 32 := 0#32
  ![v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S3x4_S3x4_0_0 : ∀ a, (![0, 0] : Fin 2 → Nat) a + S3x4.size a ≤ S3x4.size a
  h_S3x4 : 0 < S3x4.numel
  shapeCasts_S3x4_S3x4 : S3x4.ShapeCasts S3x4
  h_S1024x2 : 0 < S1024x2.numel
  h_S1024 : 0 < S1024.numel
  slices_S1024x2_o0_0_S1024x1 : S1024x2.Slices ![0, 0] S1024x1
  shapeCasts_S1024x1_S1024 : S1024x1.ShapeCasts S1024
  slices_S1024x2_o0_1_S1024x1 : S1024x2.Slices ![0, 1] S1024x1
  shapeCasts_S1024_S1x1024 : S1024.ShapeCasts S1x1024
  reduces_S1x1024_S1 : S1x1024.Reduces [1] S1
  shapeCasts_S1_S1x1 : S1.ShapeCasts S1x1
  inpos_S1x1_p0_0 : ∀ a, (![0, 0] : Fin 2 → Nat) a < S1x1.size a
  natLt_1_32 : 1 < 32
  concatenates_S1_S1_S1_S1_S4_d0 : Shape.Concatenates [S1, S1, S1, S1] S4 0
  shapeCasts_S4_S1x4 : S4.ShapeCasts S1x4
  concatenates_S1x4_S1x4_S1x4_S3x4_d0 : Shape.Concatenates [S1x4, S1x4, S1x4] S3x4 0
  inb_S1x3x4_S1x3x4_0_0_0 : ∀ a, (![0, 0, 0] : Fin 3 → Nat) a + S1x3x4.size a ≤ S1x3x4.size a
  h_S1x3x4 : 0 < S1x3x4.numel
  shapeCasts_S1x3x4_S3x4 : S1x3x4.ShapeCasts S3x4
  shapeCasts_S3x4_S1x3x4 : S3x4.ShapeCasts S1x3x4
  reducesTo_S2x3x4_S3x4_d0 : S2x3x4.ReducesTo [0] S3x4
  h_S_ : 0 < S_.numel
  slices_S3x4_S1x4_0_0 : S3x4.Slices ![0, 0] S1x4
  shapeCasts_S1x4_S4 : S1x4.ShapeCasts S4
  slices_S3x4_S1x4_1_0 : S3x4.Slices ![1, 0] S1x4
  slices_S3x4_S1x4_2_0 : S3x4.Slices ![2, 0] S1x4
  bcast_S_S4 : S_.BroadcastsInDim S4 (![] : Fin 0 → Fin S4.rank)
  reducesTo_S4_S_d0 : S4.ReducesTo [0] S_
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x2.size a ≤ S8192x2.size a
  k0_off2_inb : ∀ k0_t1 : Fin k0_t1_loop.trips, ∀ a, (k0_off2 k0_t1) a + S1024.size a ≤ S8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x2.size a ≤ S16777216x2.size a
  hwx0_0 : ∀ i : grid0.Coords, EltTy.bits .f32 = 32 ∨ (Rect.block (s := S16777216x2) S8192x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x2.size a ≤ S16777216x2.size a
  hwx0_1 : ∀ i : grid0.Coords, EltTy.bits .f32 = 32 ∨ (Rect.block (s := S16777216x2) S8192x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S16777216.size a
  hwx0_2 : ∀ i : grid0.Coords, EltTy.bits .f32 = 32 ∨ (Rect.block (s := S16777216) S8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x4.size a ≤ S2x3x4.size a
  hwx0_3 : ∀ i : grid0.Coords, EltTy.bits .f32 = 32 ∨ (Rect.block (s := S2x3x4) S1x3x4.size (cc0_transform_3 i) (hinb0_3 i)).WholeWords (EltTy.packing .f32)

variable [Facts₀]

abbrev win0_0 : Pipeline.Window sig grid0 :=
  Pipeline.Window.ofSpec (Memref.whole main_arg0) S8192x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x3x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16777216x2 : Shape := ⟨2, ![16777216, 2]⟩
abbrev S16777216 : Shape := ⟨1, ![16777216]⟩
abbrev S_ : Shape := ⟨0, ![]⟩

abbrev nBuf : Space → Nat
  | .hbm => 182
  | .vmem => 0
  | .smem => 0
  | _ => 0

abbrev hbmTy0_0 (i : Nat) : BufTy := match i % 128 with
  | 0 => ⟨S16777216x2, .f32⟩
  | 1 => ⟨S16777216x2, .f32⟩
  | 2 => ⟨S16777216, .f32⟩
  | 3 => ⟨S16777216x2, .f32⟩
  | 4 => ⟨S16777216x2, .f32⟩
  | 5 => ⟨S_, .f32⟩
  | 6 => ⟨S16777216, .f32⟩
  | 7 => ⟨S16777216x2, .f32⟩
  | 8 => ⟨S_, .f32⟩
  | 9 => ⟨S16777216, .f32⟩
  | 10 => ⟨S16777216, .f32⟩
  | 11 => ⟨S16777216x2, .f32⟩
  | 12 => ⟨S_, .f32⟩
  | 13 => ⟨S16777216, .f32⟩
  | 14 => ⟨S16777216, .f32⟩
  | 15 => ⟨S16777216, .f32⟩
  | 16 => ⟨S16777216, .f32⟩
  | 17 => ⟨S_, .f32⟩
  | 18 => ⟨S16777216, .f32⟩
  | 19 => ⟨S16777216, .i1⟩
  | 20 => ⟨S_, .f32⟩
  | 21 => ⟨S16777216, .f32⟩
  | 22 => ⟨S16777216, .i1⟩
  | 23 => ⟨S16777216, .i1⟩
  | 24 => ⟨S16777216, .i32⟩
  | 25 => ⟨S_, .i32⟩
  | 26 => ⟨S_, .i32⟩
  | 27 => ⟨S_, .f32⟩
  | 28 => ⟨S_, .f32⟩
  | 29 => ⟨S16777216, .f32⟩
  | 30 => ⟨S16777216, .f32⟩
  | 31 => ⟨S_, .f32⟩
  | 32 => ⟨S_, .f32⟩
  | 33 => ⟨S_, .i32⟩
  | 34 => ⟨S_, .i32⟩
  | 35 => ⟨S_, .i32⟩
  | 36 => ⟨S_, .i32⟩
  | 37 => ⟨S_, .f32⟩
  | 38 => ⟨S_, .f32⟩
  | 39 => ⟨S_, .f32⟩
  | 40 => ⟨S_, .f32⟩
  | 41 => ⟨S16777216, .f32⟩
  | 42 => ⟨S16777216, .f32⟩
  | 43 => ⟨S_, .f32⟩
  | 44 => ⟨S_, .f32⟩
  | 45 => ⟨S_, .i32⟩
  | 46 => ⟨S_, .i32⟩
  | 47 => ⟨S_, .f32⟩
  | 48 => ⟨S_, .f32⟩
  | 49 => ⟨S_, .i32⟩
  | 50 => ⟨S_, .i1⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S16777216, .f32⟩
  | 61 => ⟨S16777216, .i1⟩
  | 62 => ⟨S_, .f32⟩
  | 63 => ⟨S16777216, .f32⟩
  | 64 => ⟨S16777216, .i1⟩
  | 65 => ⟨S16777216, .i1⟩
  | 66 => ⟨S16777216, .i32⟩
  | 67 => ⟨S_, .i32⟩
  | 68 => ⟨S_, .i32⟩
  | 69 => ⟨S_, .f32⟩
  | 70 => ⟨S_, .f32⟩
  | 71 => ⟨S16777216, .f32⟩
  | 72 => ⟨S16777216, .f32⟩
  | 73 => ⟨S_, .f32⟩
  | 74 => ⟨S_, .f32⟩
  | 75 => ⟨S_, .i32⟩
  | 76 => ⟨S_, .i32⟩
  | 77 => ⟨S_, .i32⟩
  | 78 => ⟨S_, .i32⟩
  | 79 => ⟨S_, .f32⟩
  | 80 => ⟨S_, .f32⟩
  | 81 => ⟨S_, .f32⟩
  | 82 => ⟨S_, .f32⟩
  | 83 => ⟨S16777216, .f32⟩
  | 84 => ⟨S16777216, .f32⟩
  | 85 => ⟨S_, .f32⟩
  | 86 => ⟨S_, .f32⟩
  | 87 => ⟨S_, .i32⟩
  | 88 => ⟨S_, .i32⟩
  | 89 => ⟨S_, .f32⟩
  | 90 => ⟨S_, .f32⟩
  | 91 => ⟨S_, .i32⟩
  | 92 => ⟨S_, .i1⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S16777216, .f32⟩
  | 102 => ⟨S16777216, .i1⟩
  | 103 => ⟨S_, .f32⟩
  | 104 => ⟨S16777216, .f32⟩
  | 105 => ⟨S16777216, .i1⟩
  | 106 => ⟨S16777216, .i1⟩
  | 107 => ⟨S16777216, .i32⟩
  | 108 => ⟨S_, .i32⟩
  | 109 => ⟨S_, .i32⟩
  | 110 => ⟨S_, .f32⟩
  | 111 => ⟨S_, .f32⟩
  | 112 => ⟨S16777216, .f32⟩
  | 113 => ⟨S16777216, .f32⟩
  | 114 => ⟨S_, .f32⟩
  | 115 => ⟨S_, .f32⟩
  | 116 => ⟨S_, .i32⟩
  | 117 => ⟨S_, .i32⟩
  | 118 => ⟨S_, .i32⟩
  | 119 => ⟨S_, .i32⟩
  | 120 => ⟨S_, .f32⟩
  | 121 => ⟨S_, .f32⟩
  | 122 => ⟨S_, .f32⟩
  | 123 => ⟨S_, .f32⟩
  | 124 => ⟨S16777216, .f32⟩
  | 125 => ⟨S16777216, .f32⟩
  | 126 => ⟨S_, .f32⟩
  | 127 => ⟨S_, .f32⟩
  | _ => ⟨S16777216x2, .f32⟩

abbrev hbmTy0_1 (i : Nat) : BufTy := match i % 128 with
  | 0 => ⟨S_, .i32⟩
  | 1 => ⟨S_, .i32⟩
  | 2 => ⟨S_, .f32⟩
  | 3 => ⟨S_, .f32⟩
  | 4 => ⟨S_, .i32⟩
  | 5 => ⟨S_, .i1⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S16777216, .f32⟩
  | 15 => ⟨S16777216, .i1⟩
  | 16 => ⟨S_, .f32⟩
  | 17 => ⟨S16777216, .f32⟩
  | 18 => ⟨S16777216, .i1⟩
  | 19 => ⟨S16777216, .i1⟩
  | 20 => ⟨S16777216, .i32⟩
  | 21 => ⟨S_, .i32⟩
  | 22 => ⟨S_, .i32⟩
  | 23 => ⟨S_, .f32⟩
  | 24 => ⟨S_, .f32⟩
  | 25 => ⟨S16777216, .f32⟩
  | 26 => ⟨S16777216, .f32⟩
  | 27 => ⟨S_, .f32⟩
  | 28 => ⟨S_, .f32⟩
  | 29 => ⟨S_, .i32⟩
  | 30 => ⟨S_, .i32⟩
  | 31 => ⟨S_, .i32⟩
  | 32 => ⟨S_, .i32⟩
  | 33 => ⟨S_, .f32⟩
  | 34 => ⟨S_, .f32⟩
  | 35 => ⟨S_, .f32⟩
  | 36 => ⟨S_, .f32⟩
  | 37 => ⟨S16777216, .f32⟩
  | 38 => ⟨S16777216, .f32⟩
  | 39 => ⟨S_, .f32⟩
  | 40 => ⟨S_, .f32⟩
  | 41 => ⟨S_, .i32⟩
  | 42 => ⟨S_, .i32⟩
  | 43 => ⟨S_, .f32⟩
  | 44 => ⟨S_, .f32⟩
  | 45 => ⟨S_, .i32⟩
  | 46 => ⟨S_, .i1⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | _ => ⟨S16777216x2, .f32⟩

abbrev hbmTy (i : Nat) : BufTy := match i / 128 with
  | 0 => hbmTy0_0 i
  | 1 => hbmTy0_1 i
  | _ => ⟨S16777216x2, .f32⟩

abbrev bufTy : (tb : Table) → Fin (tcTables nBuf tb) → BufTy
  | .hbm, ⟨i, _⟩ => hbmTy i
  | _, _ => ⟨S16777216x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_c_6 : Ref sig .tc := ⟨.hbm, 33, rfl⟩
abbrev main_v20 : Ref sig .tc := ⟨.hbm, 34, rfl⟩
abbrev main_c_7 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_8 : Ref sig .tc := ⟨.hbm, 39, rfl⟩
abbrev main_call1_v0 : Ref sig .tc := ⟨.hbm, 40, rfl⟩
abbrev main_call1_v1 : Ref sig .tc := ⟨.hbm, 41, rfl⟩
abbrev main_v24 : Ref sig .tc := ⟨.hbm, 42, rfl⟩
abbrev main_cst_9 : Ref sig .tc := ⟨.hbm, 43, rfl⟩
abbrev main_v25 : Ref sig .tc := ⟨.hbm, 44, rfl⟩
abbrev main_c_10 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_11 : Ref sig .tc := ⟨.hbm, 49, rfl⟩
abbrev main_v29 : Ref sig .tc := ⟨.hbm, 50, rfl⟩
abbrev main_cst_12 : Ref sig .tc := ⟨.hbm, 51, rfl⟩
abbrev main_v30 : Ref sig .tc := ⟨.hbm, 52, rfl⟩
abbrev main_v31 : Ref sig .tc := ⟨.hbm, 53, rfl⟩
abbrev main_cst_13 : Ref sig .tc := ⟨.hbm, 54, rfl⟩
abbrev main_call2_v0 : Ref sig .tc := ⟨.hbm, 55, rfl⟩
abbrev main_v32 : Ref sig .tc := ⟨.hbm, 56, rfl⟩
abbrev main_cst_14 : Ref sig .tc := ⟨.hbm, 57, rfl⟩
abbrev main_v33 : Ref sig .tc := ⟨.hbm, 58, rfl⟩
abbrev main_cst_15 : Ref sig .tc := ⟨.hbm, 59, rfl⟩
abbrev main_v34 : Ref sig .tc := ⟨.hbm, 60, rfl⟩
abbrev main_v35 : Ref sig .tc := ⟨.hbm, 61, rfl⟩
abbrev main_cst_16 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_17 : Ref sig .tc := ⟨.hbm, 67, rfl⟩
abbrev main_v40 : Ref sig .tc := ⟨.hbm, 68, rfl⟩
abbrev main_cst_18 : Ref sig .tc := ⟨.hbm, 69, rfl⟩
abbrev main_call3_v0 : Ref sig .tc := ⟨.hbm, 70, rfl⟩
abbrev main_call3_v1 : Ref sig .tc := ⟨.hbm, 71, rfl⟩
abbrev main_v41 : Ref sig .tc := ⟨.hbm, 72, rfl⟩
abbrev main_cst_19 : Ref sig .tc := ⟨.hbm, 73, rfl⟩
abbrev main_v42 : Ref sig .tc := ⟨.hbm, 74, rfl⟩
abbrev main_c_20 : Ref sig .tc := ⟨.hbm, 75, rfl⟩
abbrev main_v43 : Ref sig .tc := ⟨.hbm, 76, rfl⟩
abbrev main_c_21 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_22 : Ref sig .tc := ⟨.hbm, 81, rfl⟩
abbrev main_call4_v0 : Ref sig .tc := ⟨.hbm, 82, rfl⟩
abbrev main_call4_v1 : Ref sig .tc := ⟨.hbm, 83, rfl⟩
abbrev main_v47 : Ref sig .tc := ⟨.hbm, 84, rfl⟩
abbrev main_cst_23 : Ref sig .tc := ⟨.hbm, 85, rfl⟩
abbrev main_v48 : Ref sig .tc := ⟨.hbm, 86, rfl⟩
abbrev main_c_24 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_c_25 : Ref sig .tc := ⟨.hbm, 91, rfl⟩
abbrev main_v52 : Ref sig .tc := ⟨.hbm, 92, rfl⟩
abbrev main_cst_26 : Ref sig .tc := ⟨.hbm, 93, rfl⟩
abbrev main_v53 : Ref sig .tc := ⟨.hbm, 94, rfl⟩
abbrev main_v54 : Ref sig .tc := ⟨.hbm, 95, rfl⟩
abbrev main_cst_27 : Ref sig .tc := ⟨.hbm, 96, rfl⟩
abbrev main_call5_v0 : Ref sig .tc := ⟨.hbm, 97, rfl⟩
abbrev main_v55 : Ref sig .tc := ⟨.hbm, 98, rfl⟩
abbrev main_v56 : Ref sig .tc := ⟨.hbm, 99, rfl⟩
abbrev main_cst_28 : Ref sig .tc := ⟨.hbm, 100, rfl⟩
abbrev main_v57 : Ref sig .tc := ⟨.hbm, 101, rfl⟩
abbrev main_v58 : Ref sig .tc := ⟨.hbm, 102, rfl⟩
abbrev main_cst_29 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_c_30 : Ref sig .tc := ⟨.hbm, 108, rfl⟩
abbrev main_v63 : Ref sig .tc := ⟨.hbm, 109, rfl⟩
abbrev main_cst_31 : Ref sig .tc := ⟨.hbm, 110, rfl⟩
abbrev main_call6_v0 : Ref sig .tc := ⟨.hbm, 111, rfl⟩
abbrev main_call6_v1 : Ref sig .tc := ⟨.hbm, 112, rfl⟩
abbrev main_v64 : Ref sig .tc := ⟨.hbm, 113, rfl⟩
abbrev main_cst_32 : Ref sig .tc := ⟨.hbm, 114, rfl⟩
abbrev main_v65 : Ref sig .tc := ⟨.hbm, 115, rfl⟩
abbrev main_c_33 : Ref sig .tc := ⟨.hbm, 116, rfl⟩
abbrev main_v66 : Ref sig .tc := ⟨.hbm, 117, rfl⟩
abbrev main_c_34 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_cst_35 : Ref sig .tc := ⟨.hbm, 122, rfl⟩
abbrev main_call7_v0 : Ref sig .tc := ⟨.hbm, 123, rfl⟩
abbrev main_call7_v1 : Ref sig .tc := ⟨.hbm, 124, rfl⟩
abbrev main_v70 : Ref sig .tc := ⟨.hbm, 125, rfl⟩
abbrev main_cst_36 : Ref sig .tc := ⟨.hbm, 126, rfl⟩
abbrev main_v71 : Ref sig .tc := ⟨.hbm, 127, rfl⟩
abbrev main_c_37 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_c_38 : Ref sig .tc := ⟨.hbm, 132, rfl⟩
abbrev main_v75 : Ref sig .tc := ⟨.hbm, 133, rfl⟩
abbrev main_cst_39 : Ref sig .tc := ⟨.hbm, 134, rfl⟩
abbrev main_v76 : Ref sig .tc := ⟨.hbm, 135, rfl⟩
abbrev main_v77 : Ref sig .tc := ⟨.hbm, 136, rfl⟩
abbrev main_cst_40 : Ref sig .tc := ⟨.hbm, 137, rfl⟩
abbrev main_call8_v0 : Ref sig .tc := ⟨.hbm, 138, rfl⟩
abbrev main_v78 : Ref sig .tc := ⟨.hbm, 139, rfl⟩
abbrev main_v79 : Ref sig .tc := ⟨.hbm, 140, rfl⟩
abbrev main_cst_41 : Ref sig .tc := ⟨.hbm, 141, rfl⟩
abbrev main_v80 : Ref sig .tc := ⟨.hbm, 142, rfl⟩
abbrev main_v81 : Ref sig .tc := ⟨.hbm, 143, rfl⟩
abbrev main_cst_42 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_c_43 : Ref sig .tc := ⟨.hbm, 149, rfl⟩
abbrev main_v86 : Ref sig .tc := ⟨.hbm, 150, rfl⟩
abbrev main_cst_44 : Ref sig .tc := ⟨.hbm, 151, rfl⟩
abbrev main_call9_v0 : Ref sig .tc := ⟨.hbm, 152, rfl⟩
abbrev main_call9_v1 : Ref sig .tc := ⟨.hbm, 153, rfl⟩
abbrev main_v87 : Ref sig .tc := ⟨.hbm, 154, rfl⟩
abbrev main_cst_45 : Ref sig .tc := ⟨.hbm, 155, rfl⟩
abbrev main_v88 : Ref sig .tc := ⟨.hbm, 156, rfl⟩
abbrev main_c_46 : Ref sig .tc := ⟨.hbm, 157, rfl⟩
abbrev main_v89 : Ref sig .tc := ⟨.hbm, 158, rfl⟩
abbrev main_c_47 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_cst_48 : Ref sig .tc := ⟨.hbm, 163, rfl⟩
abbrev main_call10_v0 : Ref sig .tc := ⟨.hbm, 164, rfl⟩
abbrev main_call10_v1 : Ref sig .tc := ⟨.hbm, 165, rfl⟩
abbrev main_v93 : Ref sig .tc := ⟨.hbm, 166, rfl⟩
abbrev main_cst_49 : Ref sig .tc := ⟨.hbm, 167, rfl⟩
abbrev main_v94 : Ref sig .tc := ⟨.hbm, 168, rfl⟩
abbrev main_c_50 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_c_51 : Ref sig .tc := ⟨.hbm, 173, rfl⟩
abbrev main_v98 : Ref sig .tc := ⟨.hbm, 174, rfl⟩
abbrev main_cst_52 : Ref sig .tc := ⟨.hbm, 175, rfl⟩
abbrev main_v99 : Ref sig .tc := ⟨.hbm, 176, rfl⟩
abbrev main_v100 : Ref sig .tc := ⟨.hbm, 177, rfl⟩
abbrev main_cst_53 : Ref sig .tc := ⟨.hbm, 178, rfl⟩
abbrev main_call11_v0 : Ref sig .tc := ⟨.hbm, 179, rfl⟩
abbrev main_v101 : Ref sig .tc := ⟨.hbm, 180, rfl⟩
abbrev main_v102 : Ref sig .tc := ⟨.hbm, 181, rfl⟩

abbrev nD : Nat := 1
abbrev τ : Topo := Topo.v7x

variable {F : FTy → Type} [FloatOps F]

class Facts₀ : Prop where
  reducesTo_S16777216x2_S16777216_d1 : S16777216x2.ReducesTo [1] S16777216
  h_S_ : 0 < S_.numel
  bcast_S_S16777216 : S_.BroadcastsInDim S16777216 (![] : Fin 0 → Fin S16777216.rank)
  natLt_1_32 : 1 < 32
  reducesTo_S16777216_S_d0 : S16777216.ReducesTo [0] S_

variable [Facts₀]

class Facts : Prop extends Facts₀ where

variable [Facts]
-- ==== Proof.Accumulator.lean ====
/-
  What one grid point leaves in the accumulator, as pure terms of the point's three input tiles.

  A grid point holds a tile of 8192 rows of each argument and walks it in eight chunks of 1024 rows.  Each chunk
  contributes a 3 x 4 table (line: squared distance / squared modulus difference / count; column: bin) of sums over its
  rows, added to a table carried through the walk from the zero table.  The point then adds the walk's table to the
  accumulator it carries across grid points (zeroed first at the first point of each half of the grid), and at the last
  point of a half copies the accumulator to the output block.  Here these steps are read off the body's run: a trip of
  the walk adds one chunk's table, the walk is the eightfold iteration, and each of the three kinds of point leaves the
  accumulator at (contents before, or zero) + (the walk's table).
-/
import proofs.«117714_j24515673326163_2_alg».proof.Proof.Gen.KernelIdeal.Frame
import Idealize.ShloMosaic.Lib.Pipeline.Value

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.Sem

variable {F : FTy → Type} [FloatOps F]

/-- Chunk k of a tile of points: its rows 1024 k … 1024 k + 1023. -/
def chunkPts (x : Vec F S8192x2 .f32) (k : Fin k0_t1_loop.trips) : Vec F S1024x2 .f32 :=
  View.ld x (Rect.unit (s := S8192x2) (k0_off1 k) S1024x2.size (k0_off1_inb k))

/-- Chunk k of a tile of radii. -/
def chunkRad (x : Vec F S8192 .f32) (k : Fin k0_t1_loop.trips) : Vec F S1024 .f32 :=
  View.ld x (Rect.unit (s := S8192) (k0_off2 k) S1024.size (k0_off2_inb k))

/-- The carried table plus one chunk's table, from the chunk's two point arrays and its radii. -/
def addChunk (acc : FVec F S3x4 .f32) (u v : Vec F S1024x2 .f32) (w : Vec F S1024 .f32) : FVec F S3x4 .f32 :=
  k0_pay3 acc w (k0_pay10 u v) (k0_pay11 u v) (k0_pay13 u v w) (k0_pay14 u v w) (k0_pay16 (k0_pay15 w))
    (k0_pay18 w (k0_pay10 u v)) (k0_pay19 w (k0_pay11 u v)) (k0_pay20 w) (k0_pay22 w (k0_pay10 u v))
    (k0_pay23 w (k0_pay11 u v)) (k0_pay24 w)

/-- One trip of the walk over buffers holding the tiles x0, x1, x2 adds chunk k's table to the carried one. -/
theorem trip_eq (𝒱 : Variants) (bd : Option 𝒱.V) (c : Dev nD) (i : grid0.Coords) (arg2 : Memref sig .tc .vmem S8192x2 .f32) (harg2 : arg2.IsWhole) (arg3 : Memref sig .tc .vmem S8192x2 .f32) (harg3 : arg3.IsWhole) (arg4 : Memref sig .tc .vmem S8192 .f32) (harg4 : arg4.IsWhole) (arg5 : Memref sig .tc .vmem S1x3x4 .f32) (harg5 : arg5.IsWhole) (arg6 : Memref sig .tc .vmem S3x4 .f32) (harg6 : arg6.IsWhole)
    (x0 x1 : Vec F S8192x2 .f32) (x2 : Vec F S8192 .f32) (k : Fin k0_t1_loop.trips) (acc : FVec F S3x4 .f32) :
    (trip_k0_t1 (F := F) 𝒱 c bd i arg2 harg2 arg3 harg3 arg4 harg4 arg5 harg5 arg6 harg6 (harg2.unread x0) (harg3.unread x1) (harg4.unread x2) k).1 acc
      = addChunk acc (chunkPts x0 k) (chunkPts x1 k) (chunkRad x2 k) := by
  unfold trip_k0_t1
  dsimp only
  sl_unfold_words
  simp only [View.readAt_eq_ld, harg2.read_unread, harg3.read_unread, harg4.read_unread]
  rfl

/-- The table carried before trip n of the walk: from the zero table, one chunk's table added per trip. -/
def walk (x0 x1 : Vec F S8192x2 .f32) (x2 : Vec F S8192 .f32) : ℕ → FVec F S3x4 .f32
  | 0 => k0_pay2
  | n + 1 => if h : n < k0_t1_loop.trips then
      addChunk (walk x0 x1 x2 n) (chunkPts x0 ⟨n, h⟩) (chunkPts x1 ⟨n, h⟩) (chunkRad x2 ⟨n, h⟩)
    else walk x0 x1 x2 n

/-- The loop's carried value before trip n is the walk's. -/
theorem st_eq (𝒱 : Variants) (bd : Option 𝒱.V) (c : Dev nD) (i : grid0.Coords) (arg2 : Memref sig .tc .vmem S8192x2 .f32) (harg2 : arg2.IsWhole) (arg3 : Memref sig .tc .vmem S8192x2 .f32) (harg3 : arg3.IsWhole) (arg4 : Memref sig .tc .vmem S8192 .f32) (harg4 : arg4.IsWhole) (arg5 : Memref sig .tc .vmem S1x3x4 .f32) (harg5 : arg5.IsWhole) (arg6 : Memref sig .tc .vmem S3x4 .f32) (harg6 : arg6.IsWhole)
    (x0 x1 : Vec F S8192x2 .f32) (x2 : Vec F S8192 .f32) (n : ℕ) :
    st_k0_t1 (F := F) 𝒱 c bd i arg2 harg2 arg3 harg3 arg4 harg4 arg5 harg5 arg6 harg6 (harg2.unread x0) (harg3.unread x1) (harg4.unread x2) k0_pay2 n
      = walk x0 x1 x2 n := by
  induction n with
  | zero => rfl
  | succ n ih =>
    rw [st_k0_t1.eq_2, ih]
    unfold st_k0_t1Step
    rw [walk]
    by_cases h : n < k0_t1_loop.trips
    · rw [dif_pos h, dif_pos h]
      exact trip_eq 𝒱 bd c i arg2 harg2 arg3 harg3 arg4 harg4 arg5 harg5 arg6 harg6 x0 x1 x2 ⟨n, h⟩ _
    · rw [dif_neg h, dif_neg h]

/-- The printed zero offsets of a rank-2 rectangle are the zero function. -/
theorem zero2 : (![0, 0] : Fin 2 → ℕ) = fun _ => 0 := by
  funext a; match a with | ⟨0, _⟩ => rfl | ⟨1, _⟩ => rfl

/-- The printed zero offsets of a rank-3 rectangle are the zero function. -/
theorem zero3 : (![0, 0, 0] : Fin 3 → ℕ) = fun _ => 0 := by
  funext a; match a with | ⟨0, _⟩ => rfl | ⟨1, _⟩ => rfl | ⟨2, _⟩ => rfl

/-- A point that is neither first nor last in its half leaves the accumulator at its contents before plus the walk's table. -/
theorem acc_mid (c : Dev nD) (i : grid0.Coords) (arg2 : Memref sig .tc .vmem S8192x2 .f32) (harg2 : arg2.IsWhole) (arg3 : Memref sig .tc .vmem S8192x2 .f32) (harg3 : arg3.IsWhole) (arg4 : Memref sig .tc .vmem S8192 .f32) (harg4 : arg4.IsWhole) (arg5 : Memref sig .tc .vmem S1x3x4 .f32) (harg5 : arg5.IsWhole) (arg6 : Memref sig .tc .vmem S3x4 .f32) (harg6 : arg6.IsWhole) (hc0 : ¬cond0_0 i) (hc1 : ¬cond0_1 i)
    (x0 x1 : Vec F S8192x2 .f32) (x2 : Vec F S8192 .f32) (xs0 : Vec F S3x4 .f32) :
    sout0_B_0 c i arg2 harg2 arg3 harg3 arg4 harg4 arg5 harg5 arg6 harg6 hc0 hc1 x0 x1 x2 xs0 = k0_pay4 (walk x0 x1 x2 k0_t1_loop.trips) xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero zero2]
  simp only [View.readAt_eq_ld, harg6.read_unread, View.ld_unit_zero (S := S3x4) zero2, st_eq]

/-- The first point of a half zeroes the accumulator and then adds the walk's table to it. -/
theorem acc_first (c : Dev nD) (i : grid0.Coords) (arg2 : Memref sig .tc .vmem S8192x2 .f32) (harg2 : arg2.IsWhole) (arg3 : Memref sig .tc .vmem S8192x2 .f32) (harg3 : arg3.IsWhole) (arg4 : Memref sig .tc .vmem S8192 .f32) (harg4 : arg4.IsWhole) (arg5 : Memref sig .tc .vmem S1x3x4 .f32) (harg5 : arg5.IsWhole) (arg6 : Memref sig .tc .vmem S3x4 .f32) (harg6 : arg6.IsWhole) (hc0 : cond0_0 i) (hc1 : ¬cond0_1 i)
    (x0 x1 : Vec F S8192x2 .f32) (x2 : Vec F S8192 .f32) :
    sout0_A_0 c i arg2 harg2 arg3 harg3 arg4 harg4 arg5 harg5 arg6 harg6 hc0 hc1 x0 x1 x2 = k0_pay4 (walk x0 x1 x2 k0_t1_loop.trips) k0_pay1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero zero2]
  simp only [View.readCov_unit_zero (S := S3x4) _ zero2, st_eq]

/-- The last point of a half leaves the accumulator like a middle one, -/
theorem acc_last (c : Dev nD) (i : grid0.Coords) (arg2 : Memref sig .tc .vmem S8192x2 .f32) (harg2 : arg2.IsWhole) (arg3 : Memref sig .tc .vmem S8192x2 .f32) (harg3 : arg3.IsWhole) (arg4 : Memref sig .tc .vmem S8192 .f32) (harg4 : arg4.IsWhole) (arg5 : Memref sig .tc .vmem S1x3x4 .f32) (harg5 : arg5.IsWhole) (arg6 : Memref sig .tc .vmem S3x4 .f32) (harg6 : arg6.IsWhole) (hc0 : ¬cond0_0 i) (hc1 : cond0_1 i)
    (x0 x1 : Vec F S8192x2 .f32) (x2 : Vec F S8192 .f32) (xs0 : Vec F S3x4 .f32) :
    sout0_C_0 c i arg2 harg2 arg3 harg3 arg4 harg4 arg5 harg5 arg6 harg6 hc0 hc1 x0 x1 x2 xs0 = k0_pay4 (walk x0 x1 x2 k0_t1_loop.trips) xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero zero2]
  simp only [View.readAt_eq_ld, harg6.read_unread, View.ld_unit_zero (S := S3x4) zero2, st_eq]

/-- and stores the accumulator it has just updated as the output block. -/
theorem out_last (c : Dev nD) (i : grid0.Coords) (arg2 : Memref sig .tc .vmem S8192x2 .f32) (harg2 : arg2.IsWhole) (arg3 : Memref sig .tc .vmem S8192x2 .f32) (harg3 : arg3.IsWhole) (arg4 : Memref sig .tc .vmem S8192 .f32) (harg4 : arg4.IsWhole) (arg5 : Memref sig .tc .vmem S1x3x4 .f32) (harg5 : arg5.IsWhole) (arg6 : Memref sig .tc .vmem S3x4 .f32) (harg6 : arg6.IsWhole) (hc0 : ¬cond0_0 i) (hc1 : cond0_1 i)
    (x0 x1 : Vec F S8192x2 .f32) (x2 : Vec F S8192 .f32) (xs0 : Vec F S3x4 .f32) :
    out0_C_3 c i arg2 harg2 arg3 harg3 arg4 harg4 arg5 harg5 arg6 harg6 hc0 hc1 x0 x1 x2 xs0 = k0_pay5 (k0_pay4 (walk x0 x1 x2 k0_t1_loop.trips) xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero zero3]
  simp only [View.readAt_eq_ld, harg6.read_unread, View.ld_unit_zero (S := S3x4) zero2, View.readCov_unit_zero (S := S3x4) _ zero2, st_eq]

end Cert.KernelIdeal.Acc

end
-- ==== Proof.Spec.lean ====
/-
  The radial-bin loss as one function of its three argument arrays, over the extended reals.

  The arguments are N = 16777216 pairs of plane points x[n], y[n] (two coordinates each) and a radius d[n] per pair.
  For each of the four bins [0, 1/4], [1/4, 1/2], [1/2, 3/4], [3/4, 1] (both ends included) three totals are taken over
  the pairs whose radius lies in the bin: the squared distances |x[n] - y[n]|^2, the squared differences of the
  moduli (|x[n]| - |y[n]|)^2, and the number of such pairs.  The loss adds, over the bins that are not empty,
  (squared distances) / max(2 * count, 1) + 0.1 * (squared modulus differences) / max(count, 1).

  Every total is written as a sum over the row numbers k < N of a summand defined on all natural numbers (zero from N
  on), so that it can be cut into consecutive stretches of rows by arithmetic on the bounds alone.  The bin edges, 2, 1,
  0 and 0.1 are kept as the f32 words the programs spell them with.
-/
import Idealize.ShloMosaic.PureOps.Ideal
import Idealize.ShloMosaic.Lib.ValueIdx
import Mathlib.Algebra.BigOperators.Intervals

noncomputable section

open scoped BigOperators

namespace Cert.RadialLoss

open Idealize.ShloMosaic Idealize.ShloMosaic.ValueIdx

/-- The shape of the two point arrays: N rows of two coordinates. -/
abbrev SPts : Shape := ⟨2, ![16777216, 2]⟩
/-- The shape of the radius array. -/
abbrev SRad : Shape := ⟨1, ![16777216]⟩

/-- The f32 word of zero, as an extended real. -/
abbrev zeroW : EReal := Ideal.ofBits .f32 0x00000000#32

/-- Each bin's lower edge, as an f32 word: 0, 1/4, 1/2, 3/4. -/
def loWord : Fin 4 → BitVec 32 := ![0x00000000#32, 0x3E800000#32, 0x3F000000#32, 0x3F400000#32]
/-- Each bin's upper edge, as an f32 word: 1/4, 1/2, 3/4, 1. -/
def hiWord : Fin 4 → BitVec 32 := ![0x3E800000#32, 0x3F000000#32, 0x3F400000#32, 0x3F800000#32]

/-- The squared distance of the plane points (a0, a1) and (b0, b1): the two coordinates' squared differences added. -/
def sqDistOf (a0 a1 b0 b1 : EReal) : EReal :=
  (a0 - b0) * (a0 - b0) + (a1 - b1) * (a1 - b1)

/-- The modulus of the plane point (a0, a1). -/
def modulusOf (a0 a1 : EReal) : EReal :=
  Ideal.sqrt (a0 * a0 + a1 * a1)

/-- The squared difference of the moduli of (a0, a1) and (b0, b1). -/
def modDiffOf (a0 a1 b0 b1 : EReal) : EReal :=
  (modulusOf a0 a1 - modulusOf b0 b1) * (modulusOf a0 a1 - modulusOf b0 b1)

/-- Whether the radius rad lies in bin b, both ends included, as one bit. -/
def inBinOf (rad : EReal) (b : Fin 4) : BitVec 1 :=
  IntOp.andi (Ideal.cmp .oge rad (Ideal.ofBits .f32 (loWord b))) (Ideal.cmp .ole rad (Ideal.ofBits .f32 (hiWord b)))

/-- One row's summand of the total in line r (0: squared distance, 1: squared modulus difference, 2: the count) of bin b,
    from the row's two points (a0, a1), (b0, b1) and its radius: the quantity where the radius is in the bin and zero
    elsewhere; for the count, the bin's bit read as an integer. -/
def entryOf (a0 a1 b0 b1 rad : EReal) (r : Fin 3) (b : Fin 4) : EReal :=
  ![Scalar.select (inBinOf rad b) (sqDistOf a0 a1 b0 b1) zeroW,
    Scalar.select (inBinOf rad b) (modDiffOf a0 a1 b0 b1) zeroW,
    ((((inBinOf rad b).setWidth 32).toInt : ℝ) : EReal)] r

/-- Row n's summand of line r, bin b, from the three argument arrays. -/
def entry (x y : FVec Ideal SPts .f32) (d : FVec Ideal SRad .f32) (r : Fin 3) (b : Fin 4) (n : Fin 16777216) : EReal :=
  entryOf (x (ix2 n 0)) (x (ix2 n 1)) (y (ix2 n 0)) (y (ix2 n 1)) (d (ix1 n)) r b

/-- The summand on every natural number: zero from N on. -/
def entryN (x y : FVec Ideal SPts .f32) (d : FVec Ideal SRad .f32) (r : Fin 3) (b : Fin 4) (k : ℕ) : EReal :=
  if h : k < 16777216 then entry x y d r b ⟨k, h⟩ else 0

/-- The total of line r, bin b, over all rows. -/
def total (x y : FVec Ideal SPts .f32) (d : FVec Ideal SRad .f32) (r : Fin 3) (b : Fin 4) : EReal :=
  ∑ k ∈ Finset.range 16777216, entryN x y d r b k

/-- One bin's share of the loss from its three totals D (squared distances), A (squared modulus differences) and
    C (count): D / max(2 C, 1) + 0.1 * (A / max(C, 1)) when C > 0, else zero. -/
def binLoss (D A C : EReal) : EReal :=
  Scalar.select (Ideal.cmp .ogt C zeroW)
    (Ideal.div D (max (Ideal.ofBits .f32 0x40000000#32 * C) (Ideal.ofBits .f32 0x3F800000#32))
      + Ideal.ofBits .f32 0x3DCCCCCD#32 * Ideal.div A (max C (Ideal.ofBits .f32 0x3F800000#32)))
    zeroW

/-- The loss from the table of totals: the bins' shares added to zero. -/
def lossOf (T : Fin 3 → Fin 4 → EReal) : EReal :=
  zeroW + ∑ b : Fin 4, binLoss (T 0 b) (T 1 b) (T 2 b)

/-- THE SPECIFICATION: the loss of the three argument arrays. -/
def loss (x y : FVec Ideal SPts .f32) (d : FVec Ideal SRad .f32) : EReal :=
  lossOf (total x y d)

end Cert.RadialLoss

end
-- ==== Proof.LibTileSum.lean ====
import Mathlib.Algebra.BigOperators.Fin
import Mathlib.Algebra.BigOperators.Intervals

/-!
# A sum over a range cut into tiles, the last one ragged

In any commutative additive monoid — the extended reals among them, where nothing beyond commutativity and
associativity of `+` is available — a sum over `k < T · B` is the sum over the `T` tiles of the sums over the
`B` positions inside each tile, and a summand that vanishes from `n` on may be summed to any bound past `n`.
Together: a contraction of length `n` walked in `T` tiles of `B ≥ n / T`, the overhang contributing zeros, is the
contraction.
-/

namespace TileSum

open Finset

variable {M : Type*} [AddCommMonoid M]

/-- A sum over `k < T · B` is the sum over the tiles `t < T` of the sums over the positions `j < B` of tile `t`. -/
theorem sum_range_tiles (g : ℕ → M) (B : ℕ) : ∀ T : ℕ, ∑ k ∈ range (T * B), g k = ∑ t ∈ range T, ∑ j ∈ range B, g (t * B + j)
  | 0 => by simp
  | T + 1 => by
    rw [Nat.succ_mul, sum_range_add, sum_range_tiles g B T, sum_range_succ]

/-- A summand that is zero from `n` on sums, to any bound `N ≥ n`, to its sum below `n`. -/
theorem sum_range_zero_tail (g : ℕ → M) {n N : ℕ} (h : n ≤ N) (hz : ∀ k, n ≤ k → g k = 0) :
    ∑ k ∈ range N, g k = ∑ k ∈ range n, g k := by
  obtain ⟨r, rfl⟩ := Nat.exists_eq_add_of_le h
  rw [sum_range_add, sum_eq_zero (fun x _ => hz (n + x) (Nat.le_add_right n x)), add_zero]

/-- A contraction over `Fin n` is the sum over `T` tiles of `B` positions of its summand extended by zero past `n`. -/
theorem sum_fin_eq_tiles {n T B : ℕ} (h : n ≤ T * B) (f : Fin n → M) :
    ∑ k : Fin n, f k = ∑ t ∈ range T, ∑ j ∈ range B, (if hk : t * B + j < n then f ⟨t * B + j, hk⟩ else 0) := by
  rw [← sum_range_tiles (fun k => if hk : k < n then f ⟨k, hk⟩ else 0) B T,
    sum_range_zero_tail _ h (fun k hk => dif_neg (Nat.not_lt.mpr hk)), ← Fin.sum_univ_eq_sum_range (fun k => if hk : k < n then f ⟨k, hk⟩ else 0) n]
  exact Fintype.sum_congr _ _ fun k => by rw [dif_pos k.isLt]

end TileSum
-- ==== Proof.GridSum.lean ====
/-
  The accumulator over the grid: what it holds after each point, as a sum over rows of the argument arrays.

  Grid point t (of 2048, in order) holds rows 8192 t … 8192 t + 8191 of the three arguments.  The walk over a tile adds
  up, entry by entry of the 3 x 4 table, the row summands of the tile's 8192 rows (eight chunks of 1024 consecutive
  rows, from the zero table).  The accumulator is zeroed at the first point of each half of the grid (t = 0 and
  t = 1024) and every point adds its tile's table to it, so after point t it holds the sum of the row summands over
  rows 8388608 (t / 1024) … 8192 (t + 1) - 1: one more stretch of consecutive rows per point.  At the last point of a
  half the accumulator, then the sum over the half's 8388608 rows, is copied to the output block.
  Nothing beyond associativity and commutativity of addition on the extended reals is used.
-/
import proofs.«117714_j24515673326163_2_alg».proof.Proof.Accumulator
import proofs.«117714_j24515673326163_2_alg».proof.Proof.Spec
import proofs.«117714_j24515673326163_2_alg».proof.Proof.LibTileSum
import Idealize.ShloMosaic.Lib.ValueIdx
import Idealize.ShloMosaic.Lib.Pipeline.Value

set_option maxRecDepth 16384

noncomputable section

open scoped BigOperators

namespace Cert.KernelIdeal.Grid

open Cert.KernelIdeal Cert.KernelIdeal.Gen Cert.KernelIdeal.Acc Cert.RadialLoss
open Idealize.ShloMosaic Idealize.ShloMosaic.TcCoe Idealize.ShloMosaic.ValueIdx Idealize.SL.Sem
open Idealize.ShloMosaic.Pipeline (Dat)

/-- What is used of one chunk's arithmetic, over the extended reals: entry (r, b) of the carried table after a chunk is
    the entry before plus the chunk's rows' summands; the walk starts from, and the first point stores, the zero table;
    the accumulator's update adds the walk's table to the contents before; the output block is the accumulator under a
    leading unit axis. -/
structure ChunkFacts : Prop where
  addChunk_apply : ∀ (acc : FVec Ideal S3x4 .f32) (u v : FVec Ideal S1024x2 .f32) (w : FVec Ideal S1024 .f32) (r : Fin 3) (b : Fin 4),
    addChunk (F := Ideal) acc u v w (ix2 r b)
      = acc (ix2 r b) + ∑ q : Fin 1024, entryOf (u (ix2 q 0)) (u (ix2 q 1)) (v (ix2 q 0)) (v (ix2 q 1)) (w (ix1 q)) r b
  walkStart_apply : ∀ j : S3x4.Idx, k0_pay2 (F := Ideal) j = 0
  zeroed_apply : ∀ j : S3x4.Idx, k0_pay1 (F := Ideal) j = 0
  update_apply : ∀ (t a : FVec Ideal S3x4 .f32) (j : S3x4.Idx), k0_pay4 (F := Ideal) t a j = a j + t j
  block_apply : ∀ (a : FVec Ideal S3x4 .f32) (r : Fin 3) (b : Fin 4), k0_pay5 (F := Ideal) a (ix3 0 r b) = a (ix2 r b)

/-! ## One tile -/

/-- The walk makes eight trips. -/
theorem trips_eq : k0_t1_loop.trips = 8 := by decide +kernel

/-- Trip k's chunk of a point tile starts at row 1024 k, column 0; -/
theorem off_pts : ∀ k : Fin k0_t1_loop.trips, k0_off1 k 0 = k.val * 1024 ∧ k0_off1 k 1 = 0 := by decide +kernel
/-- and its chunk of the radius tile at entry 1024 k. -/
theorem off_rad : ∀ k : Fin k0_t1_loop.trips, k0_off2 k 0 = k.val * 1024 := by decide +kernel

/-- Row q of chunk k of a point tile is row 1024 k + q of the tile. -/
theorem chunkPts_apply (x : Vec Ideal S8192x2 .f32) (k : Fin k0_t1_loop.trips) (q : Fin 1024) (col : Fin 2)
    (h : k.val * 1024 + q.val < 8192) : chunkPts x k (ix2 q col) = x (ix2 ⟨k.val * 1024 + q.val, h⟩ col) := by
  unfold chunkPts View.ld
  refine congrArg x (funext fun a => Fin.ext ?_)
  match a with
  | ⟨0, _⟩ => show k0_off1 k 0 + 1 * q.val = k.val * 1024 + q.val; rw [(off_pts k).1]; omega
  | ⟨1, _⟩ => show k0_off1 k 1 + 1 * col.val = col.val; rw [(off_pts k).2]; omega

/-- Entry q of chunk k of a radius tile is entry 1024 k + q of the tile. -/
theorem chunkRad_apply (x : Vec Ideal S8192 .f32) (k : Fin k0_t1_loop.trips) (q : Fin 1024)
    (h : k.val * 1024 + q.val < 8192) : chunkRad x k (ix1 q) = x (ix1 ⟨k.val * 1024 + q.val, h⟩) := by
  unfold chunkRad View.ld
  refine congrArg x (funext fun a => Fin.ext ?_)
  match a with
  | ⟨0, _⟩ => show k0_off2 k 0 + 1 * q.val = k.val * 1024 + q.val; rw [off_rad k]; omega

/-- Row k of a tile's summand of line r, bin b, on every natural number: zero from 8192 on. -/
def tileRow (x0 x1 : Vec Ideal S8192x2 .f32) (x2 : Vec Ideal S8192 .f32) (r : Fin 3) (b : Fin 4) (k : ℕ) : EReal :=
  if h : k < 8192 then
    entryOf (x0 (ix2 ⟨k, h⟩ 0)) (x0 (ix2 ⟨k, h⟩ 1)) (x1 (ix2 ⟨k, h⟩ 0)) (x1 (ix2 ⟨k, h⟩ 1)) (x2 (ix1 ⟨k, h⟩)) r b
  else 0

/-- After n trips the carried table holds, entry by entry, the summands of the tile's first 1024 n rows. -/
theorem walk_apply (hf : ChunkFacts) (x0 x1 : Vec Ideal S8192x2 .f32) (x2 : Vec Ideal S8192 .f32) (r : Fin 3) (b : Fin 4) :
    ∀ n : ℕ, n ≤ 8 → walk x0 x1 x2 n (ix2 r b) = ∑ k ∈ Finset.range (n * 1024), tileRow x0 x1 x2 r b k
  | 0, _ => by rw [walk, hf.walkStart_apply]; simp
  | n + 1, hn => by
    have hlt : n < k0_t1_loop.trips := by rw [trips_eq]; omega
    rw [walk, dif_pos hlt, hf.addChunk_apply, walk_apply hf x0 x1 x2 r b n (by omega), Nat.succ_mul, Finset.sum_range_add]
    congr 1
    rw [← Fin.sum_univ_eq_sum_range (fun q => tileRow x0 x1 x2 r b (n * 1024 + q)) 1024]
    refine Finset.sum_congr rfl fun q _ => ?_
    have hq : n * 1024 + q.val < 8192 := by have := q.isLt; omega
    rw [tileRow, dif_pos hq, chunkPts_apply x0 ⟨n, hlt⟩ q 0 hq, chunkPts_apply x0 ⟨n, hlt⟩ q 1 hq,
      chunkPts_apply x1 ⟨n, hlt⟩ q 0 hq, chunkPts_apply x1 ⟨n, hlt⟩ q 1 hq, chunkRad_apply x2 ⟨n, hlt⟩ q hq]

/-- The whole walk: the summands of the tile's 8192 rows. -/
theorem walk_all (hf : ChunkFacts) (x0 x1 : Vec Ideal S8192x2 .f32) (x2 : Vec Ideal S8192 .f32) (r : Fin 3) (b : Fin 4) :
    walk x0 x1 x2 k0_t1_loop.trips (ix2 r b) = ∑ k ∈ Finset.range 8192, tileRow x0 x1 x2 r b k := by
  rw [trips_eq]; exact walk_apply hf x0 x1 x2 r b 8 le_rfl

/-! ## The grid -/

variable (m : (ℓ : Loc nD τ sig) → Buf (Elt Ideal) ℓ)

/-- The three argument arrays on core c. -/
abbrev argX (c : Dev nD) : FVec Ideal SPts .f32 := m ((c.tc : Thread nD τ).loc main_arg0)
abbrev argY (c : Dev nD) : FVec Ideal SPts .f32 := m ((c.tc : Thread nD τ).loc main_arg1)
abbrev argD (c : Dev nD) : FVec Ideal SRad .f32 := m ((c.tc : Thread nD τ).loc main_arg2)

/-- Row k's summand of line r, bin b, of the arguments on core c. -/
abbrev rowN (c : Dev nD) (r : Fin 3) (b : Fin 4) (k : ℕ) : EReal := entryN (argX m c) (argY m c) (argD m c) r b k

/-- Point t's block of each input is block t along the rows. -/
theorem idx_x : ∀ t : Fin cfg0.N, win0_0.index t 0 = t.val ∧ win0_0.index t 1 = 0 :=
  (by decide +kernel : ∀ t : Fin grid0.N, win0_0.index t 0 = t.val ∧ win0_0.index t 1 = 0)
theorem idx_y : ∀ t : Fin cfg0.N, win0_1.index t 0 = t.val ∧ win0_1.index t 1 = 0 :=
  (by decide +kernel : ∀ t : Fin grid0.N, win0_1.index t 0 = t.val ∧ win0_1.index t 1 = 0)
theorem idx_d : ∀ t : Fin cfg0.N, win0_2.index t 0 = t.val :=
  (by decide +kernel : ∀ t : Fin grid0.N, win0_2.index t 0 = t.val)

/-- Row k of point t's tile of x is row 8192 t + k of x. -/
theorem tile_x (c : Dev nD) (t : Fin cfg0.N) (k : Fin 8192) (col : Fin 2) (h : t.val * 8192 + k.val < 16777216) :
    (iblk m c 0 t : Vec Ideal S8192x2 .f32) (ix2 k col) = argX m c (ix2 ⟨t.val * 8192 + k.val, h⟩ col) := by
  unfold iblk
  rw [View.read_apply]
  show V m c main_arg0 _ = m (c.tc.loc main_arg0) _
  unfold V
  congr 1
  funext a
  apply Fin.ext
  match a with
  | ⟨0, _⟩ => show win0_0.index t 0 * 8192 + 1 * k.val = t.val * 8192 + k.val; rw [(idx_x t).1]; omega
  | ⟨1, _⟩ => show win0_0.index t 1 * 2 + 1 * col.val = col.val; rw [(idx_x t).2]; omega

/-- The same of y. -/
theorem tile_y (c : Dev nD) (t : Fin cfg0.N) (k : Fin 8192) (col : Fin 2) (h : t.val * 8192 + k.val < 16777216) :
    (iblk m c 1 t : Vec Ideal S8192x2 .f32) (ix2 k col) = argY m c (ix2 ⟨t.val * 8192 + k.val, h⟩ col) := by
  unfold iblk
  rw [View.read_apply]
  show V m c main_arg1 _ = m (c.tc.loc main_arg1) _
  unfold V
  congr 1
  funext a
  apply Fin.ext
  match a with
  | ⟨0, _⟩ => show win0_1.index t 0 * 8192 + 1 * k.val = t.val * 8192 + k.val; rw [(idx_y t).1]; omega
  | ⟨1, _⟩ => show win0_1.index t 1 * 2 + 1 * col.val = col.val; rw [(idx_y t).2]; omega

/-- Entry k of point t's tile of the radii is entry 8192 t + k. -/
theorem tile_d (c : Dev nD) (t : Fin cfg0.N) (k : Fin 8192) (h : t.val * 8192 + k.val < 16777216) :
    (iblk m c 2 t : Vec Ideal S8192 .f32) (ix1 k) = argD m c (ix1 ⟨t.val * 8192 + k.val, h⟩) := by
  unfold iblk
  rw [View.read_apply]
  show V m c main_arg2 _ = m (c.tc.loc main_arg2) _
  unfold V
  congr 1
  funext a
  apply Fin.ext
  match a with
  | ⟨0, _⟩ => show win0_2.index t 0 * 8192 + 1 * k.val = t.val * 8192 + k.val; rw [idx_d t]; omega

/-- Row k of point t's tile has the summand of row 8192 t + k of the arguments. -/
theorem tileRow_eq (c : Dev nD) (t : Fin cfg0.N) (r : Fin 3) (b : Fin 4) (k : ℕ) (hk : k < 8192) :
    tileRow (iblk m c 0 t) (iblk m c 1 t) (iblk m c 2 t) r b k = rowN m c r b (t.val * 8192 + k) := by
  have hN : t.val < 2048 := lt_of_lt_of_eq t.isLt (show cfg0.N = 2048 from N_0)
  have hn : t.val * 8192 + k < 16777216 := by omega
  rw [tileRow, dif_pos hk, rowN, entryN, dif_pos hn, entry, tile_x m c t ⟨k, hk⟩ 0 hn, tile_x m c t ⟨k, hk⟩ 1 hn,
    tile_y m c t ⟨k, hk⟩ 0 hn, tile_y m c t ⟨k, hk⟩ 1 hn, tile_d m c t ⟨k, hk⟩ hn]

/-- Point t's walk: the summands of rows 8192 t … 8192 t + 8191. -/
theorem tile_sum (hf : ChunkFacts) (c : Dev nD) (t : Fin cfg0.N) (r : Fin 3) (b : Fin 4) :
    walk (iblk m c 0 t) (iblk m c 1 t) (iblk m c 2 t) k0_t1_loop.trips (ix2 r b)
      = ∑ k ∈ Finset.range 8192, rowN m c r b (t.val * 8192 + k) := by
  rw [walk_all hf]
  exact Finset.sum_congr rfl fun k hk => tileRow_eq m c t r b k (Finset.mem_range.mp hk)

/-- At the first point of a half the stretch summed so far is the point's own tile. -/
theorem first_sum (f : ℕ → EReal) (n : ℕ) (h0 : n % 1024 = 0) :
    ∑ k ∈ Finset.range 8192, f (n * 8192 + k) = ∑ k ∈ Finset.range ((n % 1024 + 1) * 8192), f (n / 1024 * 8388608 + k) := by
  rw [h0]
  exact Finset.sum_congr rfl fun k _ => congrArg f (by omega)

/-- At a later point the stretch summed up to the point before, and the point's own tile after it, make the stretch
    summed up to the point. -/
theorem step_sum (f : ℕ → EReal) (n : ℕ) (h0 : ¬n % 1024 = 0) :
    ∑ k ∈ Finset.range (((n - 1) % 1024 + 1) * 8192), f ((n - 1) / 1024 * 8388608 + k) + ∑ k ∈ Finset.range 8192, f (n * 8192 + k)
      = ∑ k ∈ Finset.range ((n % 1024 + 1) * 8192), f (n / 1024 * 8388608 + k) := by
  have e1 : (n - 1) % 1024 + 1 = n % 1024 := by omega
  have e2 : (n - 1) / 1024 = n / 1024 := by omega
  rw [e1, e2, Nat.add_mul, one_mul, Finset.sum_range_add]
  refine congrArg (_ + ·) ?_
  exact Finset.sum_congr rfl fun k _ => congrArg f (by omega)

/-- THE ACCUMULATOR after point n: entry (r, b) is the sum of the summands of the rows from the start of the point's
    half of the grid up to the end of the point's tile. -/
theorem acc_eq (hf : ChunkFacts) (c : Dev nD) (r : Fin 3) (b : Fin 4) : ∀ (n : ℕ) (hn : n < cfg0.N),
    (outsAt0 m c n hn).2 (ix2 r b) = ∑ k ∈ Finset.range ((n % 1024 + 1) * 8192), rowN m c r b (n / 1024 * 8388608 + k) := by
  intro n
  induction n using Nat.strong_induction_on with
  | _ n ih =>
    intro hn
    have hN : n < 2048 := lt_of_lt_of_eq hn (show cfg0.N = 2048 from N_0)
    by_cases h0 : n % 1024 = 0
    · have h1 : ¬n % 1024 = 1023 := by omega
      rw [outsAt0_A m c ⟨n, hn⟩ h0 h1]
      dsimp only
      rw [acc_first, hf.update_apply, hf.zeroed_apply, zero_add, tile_sum m hf c ⟨n, hn⟩ r b]
      exact first_sum (rowN m c r b) n h0
    · have ih' := ih (n - 1) (by omega) (Nat.lt_of_le_of_lt (Nat.sub_le _ _) hn)
      by_cases h1 : n % 1024 = 1023
      · rw [outsAt0_C m c ⟨n, hn⟩ h0 h1]
        dsimp only
        rw [acc_last, hf.update_apply, tile_sum m hf c ⟨n, hn⟩ r b, ih']
        exact step_sum (rowN m c r b) n h0
      · rw [outsAt0_B m c ⟨n, hn⟩ h0 h1]
        dsimp only
        rw [acc_mid, hf.update_apply, tile_sum m hf c ⟨n, hn⟩ r b, ih']
        exact step_sum (rowN m c r b) n h0

/-- THE OUTPUT BLOCK stored at the last point of a half: entry (r, b) is the sum over the half's 8388608 rows. -/
theorem out_eq (hf : ChunkFacts) (c : Dev nD) (r : Fin 3) (b : Fin 4) (t : Fin cfg0.N) (h1 : t.val % 1024 = 1023) :
    (outsAt0 m c t.val t.isLt).1 (ix3 0 r b) = ∑ k ∈ Finset.range 8388608, rowN m c r b (t.val / 1024 * 8388608 + k) := by
  have h0 : ¬t.val % 1024 = 0 := by omega
  have e := acc_eq m hf c r b t.val t.isLt
  rw [outsAt0_C m c t h0 h1] at e ⊢
  dsimp only at e ⊢
  rw [acc_last] at e
  rw [out_last, hf.block_apply, e, h1]

end Cert.KernelIdeal.Grid

end
-- ==== Proof.OutputArray.lean ====
/-
  The output array after the region: two 3 x 4 tables, one per half of the rows.

  The output window's block is one 3 x 4 table of the [2, 3, 4] array; its block index is the point's half, t / 1024,
  and it is written back only at the last point of each half (t = 1023 and t = 2047), when it holds the accumulator:
  the sums of the row summands over the half's 8388608 rows.  The two blocks tile the array, so after the region entry
  (p, r, b) of the array is the sum over rows 8388608 p … 8388608 p + 8388607 of the summand of line r, bin b.
-/
import proofs.«117714_j24515673326163_2_alg».proof.Proof.GridSum

set_option maxRecDepth 16384

noncomputable section

open scoped BigOperators

namespace Cert.KernelIdeal.Grid

open Cert.KernelIdeal Cert.KernelIdeal.Gen Cert.KernelIdeal.Acc Cert.RadialLoss
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The sum of the summands of line r, bin b, over half p of the rows. -/
def halfSum (c : Dev nD) (p : ℕ) (r : Fin 3) (b : Fin 4) : EReal :=
  ∑ k ∈ Finset.range 8388608, rowN m c r b (p * 8388608 + k)

/-- The defining sum, for the one place that opens it. -/
theorem halfSum_eq (c : Dev nD) (p : ℕ) (r : Fin 3) (b : Fin 4) :
    halfSum m c p r b = ∑ k ∈ Finset.range 8388608, rowN m c r b (p * 8388608 + k) := rfl

attribute [irreducible] halfSum

/-- The [2, 3, 4] array of the two halves' tables. -/
def halves (c : Dev nD) : Buf (Elt Ideal) ((c.tc : Thread nD τ).loc main_v0) :=
  fun (i : S2x3x4.Idx) => halfSum m c (i 0).val ⟨(i 1).val, (i 1).isLt⟩ ⟨(i 2).val, (i 2).isLt⟩

/-- The output block of point t is block (t / 1024, 0, 0), one table, moved whole. -/
theorem idx_o : ∀ t : Fin cfg0.N, win0_3.index t 0 = t.val / 1024 ∧ win0_3.index t 1 = 0 ∧ win0_3.index t 2 = 0 :=
  (by decide +kernel : ∀ t : Fin grid0.N, win0_3.index t 0 = t.val / 1024 ∧ win0_3.index t 1 = 0 ∧ win0_3.index t 2 = 0)
theorem xsize_o : ∀ t : Fin cfg0.N, win0_3.xsize (grid0.coords t) 0 = 1 ∧ win0_3.xsize (grid0.coords t) 1 = 3 ∧ win0_3.xsize (grid0.coords t) 2 = 4 :=
  (by decide +kernel : ∀ t : Fin grid0.N, win0_3.xsize (grid0.coords t) 0 = 1 ∧ win0_3.xsize (grid0.coords t) 1 = 3 ∧ win0_3.xsize (grid0.coords t) 2 = 4)

/-- Reading block t of any contents of the output array: the contents at the block's place in the array. -/
theorem blk_read (c : Dev nD) (t : Fin cfg0.N) (G : Buf (Elt Ideal) ((c.tc : Thread nD τ).loc main_v0))
    (y : ((cfg0.win 3).xblock (cfg0.grid.coords t)).Idx) :
    ((cfg0.win 3).blk t).view.read (Elt Ideal) G y = G (((cfg0.win 3).blk t).view.emb y) := rfl

/-- What a write-back writes is the block of the array of half sums it writes to. -/
theorem flushed_eq (hf : ChunkFacts) (c : Dev nD) (t : Fin cfg0.N) (hfl : (cfg0.win 3).flush t = true) :
    (dats m 0 c).flushed 3 t = ((cfg0.win 3).blk t).view.read (Elt Ideal) (halves m c) := by
  have h1 : t.val % 1024 = 1023 := (flush0_3 t).mp hfl
  have key : ∀ (j : S1x3x4.Idx) (i : S2x3x4.Idx), (i 0).val = t.val / 1024 → (i 1).val = (j 1).val → (i 2).val = (j 2).val →
      (outsAt0 m c t.val t.isLt).1 j = halves m c i := by
    intro j i e0 e1 e2
    obtain ⟨p0, p1, p2, rfl⟩ : ∃ (p0 : Fin 1) (p1 : Fin 3) (p2 : Fin 4), j = ix3 p0 p1 p2 := ⟨j 0, j 1, j 2, eq_ix3 j⟩
    obtain rfl : p0 = 0 := Subsingleton.elim _ _
    rw [out_eq m hf c p1 p2 t h1, ← halfSum_eq]
    unfold halves
    dsimp only
    rw [e0, show (⟨(i 1).val, (i 1).isLt⟩ : Fin 3) = p1 from Fin.ext e1, show (⟨(i 2).val, (i 2).isLt⟩ : Fin 4) = p2 from Fin.ext e2]
  funext y
  show (dats m 0 c).after 3 t (win0_3.xinj (grid0.coords t) y) = _
  rw [after0_3, blk_read]
  refine key _ _ ?_ ?_ ?_
  · show win0_3.index t 0 * 1 + 1 * (y 0).val = t.val / 1024
    have hy : (y 0).val < 1 := lt_of_lt_of_eq (y 0).isLt (xsize_o t).1
    rw [(idx_o t).1]; omega
  · show win0_3.index t 1 * 3 + 1 * (y 1).val = (y 1).val
    rw [(idx_o t).2.1]; omega
  · show win0_3.index t 2 * 4 + 1 * (y 2).val = (y 2).val
    rw [(idx_o t).2.2]; omega

/-- The last points of the two halves. -/
abbrev tEnd0 : Fin cfg0.N := ⟨1023, by decide⟩
abbrev tEnd1 : Fin cfg0.N := ⟨2047, by decide⟩

/-- Every entry of the array lies in the block written back at the last point of its half. -/
theorem cover (c : Dev nD) : ∀ i : (((cfg0.win 3).arr.view.loc (c.tc : Thread nD τ)).2.ty.Idx),
    ∃ t : Fin cfg0.N, (cfg0.win 3).flush t = true ∧ i ∈ ((cfg0.win 3).blk t).view.set := fun i => by
  have h0 : (i 0 : ℕ) < 2 := (i 0).isLt
  have h1 : (i 1 : ℕ) < 3 := (i 1).isLt
  have h2 : (i 2 : ℕ) < 4 := (i 2).isLt
  rcases (by omega : (i 0 : ℕ) = 0 ∨ (i 0 : ℕ) = 1) with e | e
  ·
    refine ⟨tEnd0, (flush0_3 tEnd0).mpr rfl, ?_⟩
    show i ∈ ((View.whole main_v0).slice (win0_3.rect tEnd0)).set
    rw [View.set_slice_whole, Rect.mem_set_unit]
    intro a
    match a with
    | ⟨0, _⟩ =>
      show win0_3.index tEnd0 0 * win0_3.size 0 ≤ (i 0 : ℕ) ∧ (i 0 : ℕ) < win0_3.index tEnd0 0 * win0_3.size 0 + win0_3.xsize (grid0.coords tEnd0) 0
      rw [show win0_3.index tEnd0 0 * win0_3.size 0 = 0 from by decide +kernel, show win0_3.xsize (grid0.coords tEnd0) 0 = 1 from by decide +kernel]; omega
    | ⟨1, _⟩ =>
      show win0_3.index tEnd0 1 * win0_3.size 1 ≤ (i 1 : ℕ) ∧ (i 1 : ℕ) < win0_3.index tEnd0 1 * win0_3.size 1 + win0_3.xsize (grid0.coords tEnd0) 1
      rw [show win0_3.index tEnd0 1 * win0_3.size 1 = 0 from by decide +kernel, show win0_3.xsize (grid0.coords tEnd0) 1 = 3 from by decide +kernel]; omega
    | ⟨2, _⟩ =>
      show win0_3.index tEnd0 2 * win0_3.size 2 ≤ (i 2 : ℕ) ∧ (i 2 : ℕ) < win0_3.index tEnd0 2 * win0_3.size 2 + win0_3.xsize (grid0.coords tEnd0) 2
      rw [show win0_3.index tEnd0 2 * win0_3.size 2 = 0 from by decide +kernel, show win0_3.xsize (grid0.coords tEnd0) 2 = 4 from by decide +kernel]; omega
  ·
    refine ⟨tEnd1, (flush0_3 tEnd1).mpr rfl, ?_⟩
    show i ∈ ((View.whole main_v0).slice (win0_3.rect tEnd1)).set
    rw [View.set_slice_whole, Rect.mem_set_unit]
    intro a
    match a with
    | ⟨0, _⟩ =>
      show win0_3.index tEnd1 0 * win0_3.size 0 ≤ (i 0 : ℕ) ∧ (i 0 : ℕ) < win0_3.index tEnd1 0 * win0_3.size 0 + win0_3.xsize (grid0.coords tEnd1) 0
      rw [show win0_3.index tEnd1 0 * win0_3.size 0 = 1 from by decide +kernel, show win0_3.xsize (grid0.coords tEnd1) 0 = 1 from by decide +kernel]; omega
    | ⟨1, _⟩ =>
      show win0_3.index tEnd1 1 * win0_3.size 1 ≤ (i 1 : ℕ) ∧ (i 1 : ℕ) < win0_3.index tEnd1 1 * win0_3.size 1 + win0_3.xsize (grid0.coords tEnd1) 1
      rw [show win0_3.index tEnd1 1 * win0_3.size 1 = 0 from by decide +kernel, show win0_3.xsize (grid0.coords tEnd1) 1 = 3 from by decide +kernel]; omega
    | ⟨2, _⟩ =>
      show win0_3.index tEnd1 2 * win0_3.size 2 ≤ (i 2 : ℕ) ∧ (i 2 : ℕ) < win0_3.index tEnd1 2 * win0_3.size 2 + win0_3.xsize (grid0.coords tEnd1) 2
      rw [show win0_3.index tEnd1 2 * win0_3.size 2 = 0 from by decide +kernel, show win0_3.xsize (grid0.coords tEnd1) 2 = 4 from by decide +kernel]; omega

/-- THE OUTPUT ARRAY after the region is the array of half sums. -/
theorem final (hf : ChunkFacts) (c : Dev nD) : (dats m 0 c).arrAt 3 cfg0.N = halves m c :=
  (dats m 0 c).arrAt_eq_of_cover 3 (halves m c) (flushed_eq m hf c) (cover c)

end Cert.KernelIdeal.Grid

end
-- ==== Proof.LibTypedRefs.lean ====
/-
  A typed reference moves a value between the tensor type it carries and its buffer's own type along the equation between
  the two. Moving a value to the buffer's type and back gives the value: the two transports compose to the identity.
-/
import Idealize.ShloMosaic.Lib.StableHlo

namespace Idealize.ShloMosaic.StableHlo.TRef

variable {sig : RefSig} {Val : EltTy → Type} {T : BufTy}

/-- Contents written through a typed reference read back through it unchanged. -/
theorem ofBuf_toBuf (x : TRef sig T) (v : T.Contents Val) : x.ofBuf (x.toBuf v) = v := by
  obtain ⟨r, rfl, h2, h3⟩ := x
  rfl

end Idealize.ShloMosaic.StableHlo.TRef
-- ==== Proof.HostTail.lean ====
/-
  The host lines after the region, as one function of the region's output array.

  After the region the program adds the two halves' tables (a sum over the leading axis of the [2, 3, 4] array, from
  zero), takes the table's three lines D (squared distances), A (squared modulus differences) and C (counts), and
  returns the sum over the four bins, from zero, of D / max(2 C, 1) + 0.1 * (A / max(C, 1)) where C > 0 and of zero
  elsewhere.  The lines touch no other buffer, so what they leave in the result buffer is this function of the output
  array alone, whatever the other buffers hold.
-/
import proofs.«117714_j24515673326163_2_alg».proof.Proof.Gen.KernelIdeal.Frame
import proofs.«117714_j24515673326163_2_alg».proof.Proof.LibTypedRefs
import Idealize.ShloMosaic.Lib.StableHlo.Run
import proofs.«117714_j24515673326163_2_alg».proof.Proof.Spec
import Idealize.ShloMosaic.PureOps.Ideal.Laws
import Idealize.ShloMosaic.Lib.ValueIdx
import Idealize.ShloMosaic.Lib.ValueLayout

set_option maxRecDepth 16384

noncomputable section

namespace Cert.KernelIdeal.Tail

open Cert.KernelIdeal Cert.KernelIdeal.Gen
open Idealize.ShloMosaic Idealize.ShloMosaic.TcCoe Idealize.SL.Sem Idealize.ShloMosaic.StableHlo

variable {F : FTy → Type} [FloatOps F]

/-- The sum of the two halves' tables. -/
def tableOf (P : FVec F S2x3x4 .f32) : FVec F S3x4 .f32 :=
  Host.reduceAdd P (constant S_ .f32 0x00000000#32) reducesTo_S2x3x4_S3x4_d0 h_S_

/-- The loss from the table's three lines, bin by bin, summed from zero. -/
def lossLines (D A C : FVec F S4 .f32) : FVec F S_ .f32 :=
  Host.reduceAdd
    (select (cmpf .ogt C (broadcastInDim S4 ![] bcast_S_S4 (constant S_ .f32 0x00000000#32)))
      (addf
        (Host.divf D (maximumf (mulf (broadcastInDim S4 ![] bcast_S_S4 (constant S_ .f32 0x40000000#32)) C)
          (broadcastInDim S4 ![] bcast_S_S4 (constant S_ .f32 0x3F800000#32))))
        (mulf (broadcastInDim S4 ![] bcast_S_S4 (constant S_ .f32 0x3DCCCCCD#32))
          (Host.divf A (maximumf C (broadcastInDim S4 ![] bcast_S_S4 (constant S_ .f32 0x3F800000#32))))))
      (broadcastInDim S4 ![] bcast_S_S4 (constant S_ .f32 0x00000000#32)))
    (constant S_ .f32 0x00000000#32) reducesTo_S4_S_d0 h_S_

/-- Line r of a 3 x 4 table as a vector of four. -/
def line0 (T : FVec F S3x4 .f32) : FVec F S4 .f32 := shapeCast S4 (extractStridedSlice S1x4 ![0, 0] T slices_S3x4_S1x4_0_0) shapeCasts_S1x4_S4
def line1 (T : FVec F S3x4 .f32) : FVec F S4 .f32 := shapeCast S4 (extractStridedSlice S1x4 ![1, 0] T slices_S3x4_S1x4_1_0) shapeCasts_S1x4_S4
def line2 (T : FVec F S3x4 .f32) : FVec F S4 .f32 := shapeCast S4 (extractStridedSlice S1x4 ![2, 0] T slices_S3x4_S1x4_2_0) shapeCasts_S1x4_S4

/-- THE TAIL: the result from the output array. -/
def tailOf (P : FVec F S2x3x4 .f32) : FVec F S_ .f32 :=
  lossLines (line0 (tableOf P)) (line1 (tableOf P)) (line2 (tableOf P))

set_option maxHeartbeats 4000000 in
/-- The lines after the region leave the tail of the output array in the result buffer. -/
theorem after_tail (W : Valuation τ sig (Elt F)) :
    StableHlo.after (List.flatten [hostOps1, hostOps1_1, hostOps1_2]) W (Proc.devRef .tc main_v22)
      = tailOf (W (Proc.devRef .tc main_v0)) := by
  simp only [hostOps1, hostOps1_1, hostOps1_2, List.flatten_cons, List.flatten_nil, List.append_nil, List.cons_append, List.nil_append]
  after_results_simp
  simp only [TRef.ofBuf_toBuf]
  rfl

/-! ## The tail over the extended reals -/

open Idealize.ShloMosaic.ValueIdx Cert.RadialLoss
open scoped BigOperators

/-- A rank-1 index is its one coordinate. -/
def idxEquiv1 {n : ℕ} : (⟨1, ![n]⟩ : Shape).Idx ≃ Fin n where
  toFun j := j 0
  invFun := ix1
  left_inv j := (eq_ix1 j).symm
  right_inv _ := rfl

/-- A sum over the indices of a vector is the sum over its coordinates. -/
theorem sum_idx1 {M : Type*} [AddCommMonoid M] {n : ℕ} (f : (⟨1, ![n]⟩ : Shape).Idx → M) :
    ∑ j, f j = ∑ b : Fin n, f (ix1 b) :=
  Fintype.sum_equiv idxEquiv1 f (fun b => f (ix1 b)) fun j => congrArg f (eq_ix1 j)

/-- Entry (r, b) of the summed table: zero plus the two halves' entries. -/
theorem tableOf_apply (P : FVec Ideal S2x3x4 .f32) (r : Fin 3) (b : Fin 4) :
    tableOf (F := Ideal) P (ix2 r b) = zeroW + ∑ p : Fin 2, P (ix3 p r b) := by
  unfold tableOf
  simp only [Host.reduceAdd, Ideal.hostReduceAdd_def]
  rw [Ideal.hostReduceAdd_single reducesTo_S2x3x4_S3x4_d0 (by decide)]
  refine congrArg (_ + ·) (Finset.sum_congr rfl fun p _ => ?_)
  exact congrArg P (funext fun a => Fin.ext (by match a with | ⟨0, _⟩ => rfl | ⟨1, _⟩ => rfl | ⟨2, _⟩ => rfl))

/-- The table's lines, entry by entry. -/
theorem line0_apply (T : FVec Ideal S3x4 .f32) (b : Fin 4) : line0 T (ix1 b) = T (ix2 0 b) := by
  unfold line0
  refine (shapeCast_1a_a_apply _ _ b).trans ?_
  exact slice2_axis0_apply 0 T slices_S3x4_S1x4_0_0 (0 : Fin 1) b (0 : Fin 3) rfl
theorem line1_apply (T : FVec Ideal S3x4 .f32) (b : Fin 4) : line1 T (ix1 b) = T (ix2 1 b) := by
  unfold line1
  refine (shapeCast_1a_a_apply _ _ b).trans ?_
  exact slice2_axis0_apply 1 T slices_S3x4_S1x4_1_0 (0 : Fin 1) b (1 : Fin 3) rfl
theorem line2_apply (T : FVec Ideal S3x4 .f32) (b : Fin 4) : line2 T (ix1 b) = T (ix2 2 b) := by
  unfold line2
  refine (shapeCast_1a_a_apply _ _ b).trans ?_
  exact slice2_axis0_apply 2 T slices_S3x4_S1x4_2_0 (0 : Fin 1) b (2 : Fin 3) rfl

/-- The loss of three lines: zero plus the bins' shares. -/
theorem lossLines_apply (D A C : FVec Ideal S4 .f32) (j : S_.Idx) :
    lossLines (F := Ideal) D A C j = zeroW + ∑ b : Fin 4, binLoss (D (ix1 b)) (A (ix1 b)) (C (ix1 b)) := by
  unfold lossLines
  simp only [Host.reduceAdd, Ideal.hostReduceAdd_def]
  rw [Ideal.hostReduceAdd_total reducesTo_S4_S_d0 (fun b => b.elim0)]
  refine congrArg (_ + ·) ?_
  rw [sum_idx1]
  exact Finset.sum_congr rfl fun b _ => rfl

/-- THE TAIL over the extended reals: the specification's loss of the table of the two halves' sums. -/
theorem tailOf_apply (P : FVec Ideal S2x3x4 .f32) (j : S_.Idx) :
    tailOf (F := Ideal) P j = lossOf (fun r b => zeroW + ∑ p : Fin 2, P (ix3 p r b)) := by
  unfold tailOf lossOf
  rw [lossLines_apply]
  refine congrArg (_ + ·) (Finset.sum_congr rfl fun b _ => ?_)
  rw [line0_apply, line1_apply, line2_apply, tableOf_apply, tableOf_apply, tableOf_apply]

end Cert.KernelIdeal.Tail

end
-- ==== Proof.LibRowSum.lean ====
/-
  A sum along the rows of a matrix, read at a row.

  Summing a [a, b] matrix over its second axis gives a vector of length a whose entry r is Σ_k x[r, k]. Over the
  extended reals this holds of the vector unit's add-reduction whatever order it sums in: addition of extended
  reals is commutative and associative, so the reduction is the finite sum over the dropped axis's coordinates,
  and the source index lying over row r with column k put back is (r, k).
-/
import Idealize.ShloMosaic.PureOps.Ideal.Laws
import Idealize.ShloMosaic.Lib.ValueIdx

noncomputable section

open scoped BigOperators

namespace Idealize.ShloMosaic.RowSum

open Idealize.ShloMosaic Idealize.ShloMosaic.ValueIdx

variable {a b : ℕ}

/-- The source index over row `r` with column `k` inserted on the dropped axis is `(r, k)`. -/
theorem lift_row (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- THE ROW SUM: an f32 add-reduction of a [a, b] matrix over its columns, from the zero word, has at row `r` the
    entry Σ_k x[r, k]. The accumulator's side condition is taken as the equation between the two zero words that a
    printed reduction carries. -/
theorem rowSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (lift_row h r k)

end Idealize.ShloMosaic.RowSum

end
-- ==== Proof.ChunkLayout.lean ====
/-
  Layout readings from which one chunk's table of sums is assembled.

  A column of a two-column array, taken as a slice of width one and flattened, reads the array at (row, column).  The
  sum of a vector, computed by viewing it as one row, adding along the row and extracting the single entry, is the finite
  sum of its entries.  Twelve scalars stacked four to a row and three rows to a table read, at (line, column), the scalar
  put there.
-/
import Idealize.ShloMosaic.Lib.ValueLayout
import proofs.«117714_j24515673326163_2_alg».proof.Proof.LibRowSum

noncomputable section

open scoped BigOperators

namespace Cert.KernelIdeal.Chunk

open Idealize.ShloMosaic Idealize.ShloMosaic.ValueIdx

variable {α : Type}

/-- An [a, 1] array cast to [a] reads, at q, the operand at (q, 0). -/
theorem shapeCast_a1_a_apply {a : ℕ} (x : (⟨2, ![a, 1]⟩ : Shape).Idx → α)
    (h : (⟨2, ![a, 1]⟩ : Shape).ShapeCasts ⟨1, ![a]⟩) (q : Fin a) :
    shapeCast ⟨1, ![a]⟩ x h (ix1 q) = x (ix2 q (0 : Fin 1)) :=
  shapeCast_apply x h _ _ (by
    rw [Shape.rowMajor_val_two, Shape.rowMajor_val_one]
    show q.val * 1 + 0 = q.val
    rw [Nat.mul_one, Nat.add_zero])

/-- Column c of an [a, n] array, sliced out with width one and flattened, reads at q the array at (q, c). -/
theorem column_apply {a n : ℕ} (c : ℕ) (x : (⟨2, ![a, n]⟩ : Shape).Idx → α)
    (hs : (⟨2, ![a, n]⟩ : Shape).Slices ![0, c] ⟨2, ![a, 1]⟩) (hc : (⟨2, ![a, 1]⟩ : Shape).ShapeCasts ⟨1, ![a]⟩)
    (q : Fin a) (k : Fin n) (hk : k.val = c) :
    shapeCast ⟨1, ![a]⟩ (extractStridedSlice ⟨2, ![a, 1]⟩ ![0, c] x hs) hc (ix1 q) = x (ix2 q k) :=
  (shapeCast_a1_a_apply _ hc q).trans (slice2_axis1_apply c x hs q (0 : Fin 1) k hk)

/-- The sum of a vector's entries: the vector viewed as one row, added along the row from the zero word, and the single
    entry of the result extracted, is the finite sum over the coordinates. -/
theorem vectorSum_apply {n : ℕ} (s : FVec Ideal ⟨1, ![n]⟩ .f32)
    (h1 : (⟨1, ![n]⟩ : Shape).ShapeCasts ⟨2, ![1, n]⟩) (h2 : (⟨2, ![1, n]⟩ : Shape).Reduces [1] ⟨1, ![1]⟩)
    (hφ : FKind.Formats .f32) (hacc : (0x00000000#32 : BitVec 32) = 0x00000000#32)
    (h3 : (⟨1, ![1]⟩ : Shape).ShapeCasts ⟨2, ![1, 1]⟩)
    (h4 : ∀ a, (![0, 0] : Fin 2 → Nat) a < (⟨2, ![1, 1]⟩ : Shape).size a) :
    extractAt ![0, 0]
        (shapeCast ⟨2, ![1, 1]⟩
          (multiReduction .add [1] ⟨1, ![1]⟩ (shapeCast ⟨2, ![1, n]⟩ s h1) 0x00000000#32 h2 hφ hacc) h3) h4
      = ∑ q : Fin n, s (ix1 q) := by
  have e : (fun a => (⟨(![0, 0] : Fin 2 → Nat) a, h4 a⟩ : Fin ((⟨2, ![1, 1]⟩ : Shape).size a)))
      = ix2 (0 : Fin 1) (0 : Fin 1) :=
    funext fun a => Fin.ext (by match a with | ⟨0, _⟩ => rfl | ⟨1, _⟩ => rfl)
  unfold extractAt
  rw [e]
  refine (shapeCast_a_1a_apply _ h3 (0 : Fin 1) (0 : Fin 1)).trans ?_
  refine (RowSum.rowSum_apply _ h2 hφ hacc (0 : Fin 1)).trans ?_
  exact Finset.sum_congr rfl fun q _ => shapeCast_a_1a_apply s h1 (0 : Fin 1) q

/-- Four scalars stacked into a vector of length four read, at b, the b-th scalar. -/
theorem stack4_apply (c0 c1 c2 c3 : α)
    (h : Shape.Concatenates [(⟨1, ![1]⟩ : Shape), ⟨1, ![1]⟩, ⟨1, ![1]⟩, ⟨1, ![1]⟩] ⟨1, ![4]⟩ 0) (b : Fin 4) :
    concatenate ⟨1, ![4]⟩ 0
        [⟨⟨1, ![1]⟩, broadcast ⟨1, ![1]⟩ c0⟩, ⟨⟨1, ![1]⟩, broadcast ⟨1, ![1]⟩ c1⟩, ⟨⟨1, ![1]⟩, broadcast ⟨1, ![1]⟩ c2⟩,
          ⟨⟨1, ![1]⟩, broadcast ⟨1, ![1]⟩ c3⟩] h (ix1 b)
      = ![c0, c1, c2, c3] b := by
  have hi : ∀ (j : (⟨1, ![4]⟩ : Shape).Idx) (d : Fin (⟨1, ![1]⟩ : Shape).rank),
      d.cast (rfl : (⟨1, ![1]⟩ : Shape).rank = (⟨1, ![4]⟩ : Shape).rank) ≠ (0 : Fin (⟨1, ![4]⟩ : Shape).rank) →
        ((ix1 (0 : Fin 1) : (⟨1, ![1]⟩ : Shape).Idx) d).val = (j (d.cast rfl)).val := fun j d hd => by
    match d with
    | ⟨0, _⟩ => exact absurd rfl hd
  match b with
  | ⟨0, _⟩ =>
    exact concatenate_apply_piece (t := ⟨1, ![4]⟩) 0
      [⟨⟨1, ![1]⟩, broadcast ⟨1, ![1]⟩ c0⟩, ⟨⟨1, ![1]⟩, broadcast ⟨1, ![1]⟩ c1⟩, ⟨⟨1, ![1]⟩, broadcast ⟨1, ![1]⟩ c2⟩,
        ⟨⟨1, ![1]⟩, broadcast ⟨1, ![1]⟩ c3⟩] h _ 0 (show (0 : ℕ) < 4 from by decide) ⟨1, ![1]⟩ _ rfl rfl 0 rfl (ix1 (0 : Fin 1)) (hi _) rfl
  | ⟨1, _⟩ =>
    exact concatenate_apply_piece (t := ⟨1, ![4]⟩) 0
      [⟨⟨1, ![1]⟩, broadcast ⟨1, ![1]⟩ c0⟩, ⟨⟨1, ![1]⟩, broadcast ⟨1, ![1]⟩ c1⟩, ⟨⟨1, ![1]⟩, broadcast ⟨1, ![1]⟩ c2⟩,
        ⟨⟨1, ![1]⟩, broadcast ⟨1, ![1]⟩ c3⟩] h _ 1 (show (1 : ℕ) < 4 from by decide) ⟨1, ![1]⟩ _ rfl rfl 1 rfl (ix1 (0 : Fin 1)) (hi _) rfl
  | ⟨2, _⟩ =>
    exact concatenate_apply_piece (t := ⟨1, ![4]⟩) 0
      [⟨⟨1, ![1]⟩, broadcast ⟨1, ![1]⟩ c0⟩, ⟨⟨1, ![1]⟩, broadcast ⟨1, ![1]⟩ c1⟩, ⟨⟨1, ![1]⟩, broadcast ⟨1, ![1]⟩ c2⟩,
        ⟨⟨1, ![1]⟩, broadcast ⟨1, ![1]⟩ c3⟩] h _ 2 (show (2 : ℕ) < 4 from by decide) ⟨1, ![1]⟩ _ rfl rfl 2 rfl (ix1 (0 : Fin 1)) (hi _) rfl
  | ⟨3, _⟩ =>
    exact concatenate_apply_piece (t := ⟨1, ![4]⟩) 0
      [⟨⟨1, ![1]⟩, broadcast ⟨1, ![1]⟩ c0⟩, ⟨⟨1, ![1]⟩, broadcast ⟨1, ![1]⟩ c1⟩, ⟨⟨1, ![1]⟩, broadcast ⟨1, ![1]⟩ c2⟩,
        ⟨⟨1, ![1]⟩, broadcast ⟨1, ![1]⟩ c3⟩] h _ 3 (show (3 : ℕ) < 4 from by decide) ⟨1, ![1]⟩ _ rfl rfl 3 rfl (ix1 (0 : Fin 1)) (hi _) rfl

/-- Three vectors of length four, each viewed as a row, stacked into a 3 x 4 table read, at (r, b), the r-th vector at b. -/
theorem stack3_apply (y0 y1 y2 : (⟨1, ![4]⟩ : Shape).Idx → α)
    (hc : (⟨1, ![4]⟩ : Shape).ShapeCasts ⟨2, ![1, 4]⟩)
    (h : Shape.Concatenates [(⟨2, ![1, 4]⟩ : Shape), ⟨2, ![1, 4]⟩, ⟨2, ![1, 4]⟩] ⟨2, ![3, 4]⟩ 0) (r : Fin 3) (b : Fin 4) :
    concatenate ⟨2, ![3, 4]⟩ 0
        [⟨⟨2, ![1, 4]⟩, shapeCast ⟨2, ![1, 4]⟩ y0 hc⟩, ⟨⟨2, ![1, 4]⟩, shapeCast ⟨2, ![1, 4]⟩ y1 hc⟩,
          ⟨⟨2, ![1, 4]⟩, shapeCast ⟨2, ![1, 4]⟩ y2 hc⟩] h (ix2 r b)
      = ![y0, y1, y2] r (ix1 b) := by
  have hi : ∀ (j : (⟨2, ![3, 4]⟩ : Shape).Idx) (hj : (j 1).val = b.val) (d : Fin (⟨2, ![1, 4]⟩ : Shape).rank),
      d.cast (rfl : (⟨2, ![1, 4]⟩ : Shape).rank = (⟨2, ![3, 4]⟩ : Shape).rank) ≠ (0 : Fin (⟨2, ![3, 4]⟩ : Shape).rank) →
        ((ix2 (0 : Fin 1) b : (⟨2, ![1, 4]⟩ : Shape).Idx) d).val = (j (d.cast rfl)).val := fun j hj d hd => by
    match d with
    | ⟨0, _⟩ => exact absurd rfl hd
    | ⟨1, _⟩ => exact hj.symm
  match r with
  | ⟨0, _⟩ =>
    exact (concatenate_apply_piece (t := ⟨2, ![3, 4]⟩) 0
      [⟨⟨2, ![1, 4]⟩, shapeCast ⟨2, ![1, 4]⟩ y0 hc⟩, ⟨⟨2, ![1, 4]⟩, shapeCast ⟨2, ![1, 4]⟩ y1 hc⟩,
        ⟨⟨2, ![1, 4]⟩, shapeCast ⟨2, ![1, 4]⟩ y2 hc⟩] h _ 0 (show (0 : ℕ) < 3 from by decide) ⟨2, ![1, 4]⟩ _ rfl rfl 0 rfl
      (ix2 (0 : Fin 1) b) (hi _ rfl) rfl).trans (shapeCast_a_1a_apply y0 hc (0 : Fin 1) b)
  | ⟨1, _⟩ =>
    exact (concatenate_apply_piece (t := ⟨2, ![3, 4]⟩) 0
      [⟨⟨2, ![1, 4]⟩, shapeCast ⟨2, ![1, 4]⟩ y0 hc⟩, ⟨⟨2, ![1, 4]⟩, shapeCast ⟨2, ![1, 4]⟩ y1 hc⟩,
        ⟨⟨2, ![1, 4]⟩, shapeCast ⟨2, ![1, 4]⟩ y2 hc⟩] h _ 1 (show (1 : ℕ) < 3 from by decide) ⟨2, ![1, 4]⟩ _ rfl rfl 1 rfl
      (ix2 (0 : Fin 1) b) (hi _ rfl) rfl).trans (shapeCast_a_1a_apply y1 hc (0 : Fin 1) b)
  | ⟨2, _⟩ =>
    exact (concatenate_apply_piece (t := ⟨2, ![3, 4]⟩) 0
      [⟨⟨2, ![1, 4]⟩, shapeCast ⟨2, ![1, 4]⟩ y0 hc⟩, ⟨⟨2, ![1, 4]⟩, shapeCast ⟨2, ![1, 4]⟩ y1 hc⟩,
        ⟨⟨2, ![1, 4]⟩, shapeCast ⟨2, ![1, 4]⟩ y2 hc⟩] h _ 2 (show (2 : ℕ) < 3 from by decide) ⟨2, ![1, 4]⟩ _ rfl rfl 2 rfl
      (ix2 (0 : Fin 1) b) (hi _ rfl) rfl).trans (shapeCast_a_1a_apply y2 hc (0 : Fin 1) b)

end Cert.KernelIdeal.Chunk

end
-- ==== Proof.ChunkTable.lean ====
/-
  One chunk's table of sums, entry by entry.

  A chunk is 1024 rows: two points (u[q,0], u[q,1]), (v[q,0], v[q,1]) and a radius w[q] per row q.  The chunk's table has
  in line 0 the sums of the squared distances, in line 1 the sums of the squared modulus differences and in line 2 the
  counts, each taken over the rows whose radius lies in the column's bin.  Read at (line, column), the table carried
  through the walk grows by the sum over the chunk's rows of the row's summand for that line and bin: every quantity is
  computed row by row, every sum is a finite sum of extended reals, and the stacking places each sum at its entry.
-/
import proofs.«117714_j24515673326163_2_alg».proof.Proof.Accumulator
import proofs.«117714_j24515673326163_2_alg».proof.Proof.Spec
import proofs.«117714_j24515673326163_2_alg».proof.Proof.ChunkLayout

noncomputable section

open scoped BigOperators

namespace Cert.KernelIdeal.Chunk

open Cert.KernelIdeal Cert.KernelIdeal.Gen Idealize.ShloMosaic Idealize.ShloMosaic.ValueIdx
open Cert.RadialLoss

/-! ## The tables around the walk -/

/-- The table the walk starts from is zero. -/
theorem walkStart_apply (j : S3x4.Idx) : k0_pay2 (F := Ideal) j = 0 :=
  Ideal.ofBits_zero_f32

/-- The table the first point stores is zero. -/
theorem zeroed_apply (j : S3x4.Idx) : k0_pay1 (F := Ideal) j = 0 :=
  Ideal.ofBits_zero_f32

/-- The accumulator update: the contents before (second argument) plus the walk's table (first argument). -/
theorem update_apply (t a : FVec Ideal S3x4 .f32) (j : S3x4.Idx) : k0_pay4 (F := Ideal) t a j = a j + t j :=
  congrFun (shapeCast_self (addf a t) shapeCasts_S3x4_S3x4) j

/-- The output block is the accumulator under a leading unit axis. -/
theorem block_apply (a : FVec Ideal S3x4 .f32) (r : Fin 3) (b : Fin 4) :
    k0_pay5 (F := Ideal) a (ix3 (0 : Fin 1) r b) = a (ix2 r b) :=
  shapeCast_ab_1ab_apply a shapeCasts_S3x4_S1x3x4 (0 : Fin 1) r b

/-! ## One row's quantities -/

section Row
variable (u v : FVec Ideal S1024x2 .f32) (w : FVec Ideal S1024 .f32) (q : Fin 1024)

/-- The first coordinates of the first points, at row q. -/
theorem firstX_apply : k0_pay6 (F := Ideal) u (ix1 q) = u (ix2 q 0) :=
  column_apply 0 u slices_S1024x2_o0_0_S1024x1 shapeCasts_S1024x1_S1024 q 0 rfl

/-- The second coordinates of the first points, at row q. -/
theorem firstY_apply : k0_pay7 (F := Ideal) u (ix1 q) = u (ix2 q 1) :=
  column_apply 1 u slices_S1024x2_o0_1_S1024x1 shapeCasts_S1024x1_S1024 q 1 rfl

/-- The first coordinates of the second points, at row q. -/
theorem secondX_apply : k0_pay8 (F := Ideal) v (ix1 q) = v (ix2 q 0) :=
  column_apply 0 v slices_S1024x2_o0_0_S1024x1 shapeCasts_S1024x1_S1024 q 0 rfl

/-- The second coordinates of the second points, at row q. -/
theorem secondY_apply : k0_pay9 (F := Ideal) v (ix1 q) = v (ix2 q 1) :=
  column_apply 1 v slices_S1024x2_o0_1_S1024x1 shapeCasts_S1024x1_S1024 q 1 rfl

/-- Row q's squared distance. -/
theorem sqDist_apply :
    k0_pay10 (F := Ideal) u v (ix1 q) = sqDistOf (u (ix2 q 0)) (u (ix2 q 1)) (v (ix2 q 0)) (v (ix2 q 1)) := by
  show (k0_pay6 (F := Ideal) u (ix1 q) - k0_pay8 (F := Ideal) v (ix1 q))
        * (k0_pay6 (F := Ideal) u (ix1 q) - k0_pay8 (F := Ideal) v (ix1 q))
      + (k0_pay7 (F := Ideal) u (ix1 q) - k0_pay9 (F := Ideal) v (ix1 q))
        * (k0_pay7 (F := Ideal) u (ix1 q) - k0_pay9 (F := Ideal) v (ix1 q)) = _
  rw [firstX_apply, firstY_apply, secondX_apply, secondY_apply]
  rfl

/-- Row q's squared difference of the moduli. -/
theorem modDiff_apply :
    k0_pay11 (F := Ideal) u v (ix1 q) = modDiffOf (u (ix2 q 0)) (u (ix2 q 1)) (v (ix2 q 0)) (v (ix2 q 1)) := by
  show (Ideal.sqrt (k0_pay6 (F := Ideal) u (ix1 q) * k0_pay6 (F := Ideal) u (ix1 q)
            + k0_pay7 (F := Ideal) u (ix1 q) * k0_pay7 (F := Ideal) u (ix1 q))
          - Ideal.sqrt (k0_pay8 (F := Ideal) v (ix1 q) * k0_pay8 (F := Ideal) v (ix1 q)
            + k0_pay9 (F := Ideal) v (ix1 q) * k0_pay9 (F := Ideal) v (ix1 q)))
        * (Ideal.sqrt (k0_pay6 (F := Ideal) u (ix1 q) * k0_pay6 (F := Ideal) u (ix1 q)
            + k0_pay7 (F := Ideal) u (ix1 q) * k0_pay7 (F := Ideal) u (ix1 q))
          - Ideal.sqrt (k0_pay8 (F := Ideal) v (ix1 q) * k0_pay8 (F := Ideal) v (ix1 q)
            + k0_pay9 (F := Ideal) v (ix1 q) * k0_pay9 (F := Ideal) v (ix1 q))) = _
  rw [firstX_apply, firstY_apply, secondX_apply, secondY_apply]
  rfl

end Row

/-! ## One entry's sum over the chunk -/

section Entry
variable (u v : FVec Ideal S1024x2 .f32) (w : FVec Ideal S1024 .f32)

/-- Line 0: the squared distances added over the rows whose radius lies in bin b (m: the bin's mask). -/
theorem sqDistSum (m : IVec S1024 1) (b : Fin 4) (hm : ∀ q : Fin 1024, m (ix1 q) = inBinOf (w (ix1 q)) b) :
    extractAt ![0, 0]
        (shapeCast S1x1
          (multiReduction (F := Ideal) .add [1] S1
            (shapeCast S1x1024
              (select m (k0_pay10 (F := Ideal) u v) (broadcast S1024 (Scalar.ofBits (F := Ideal) .f32 0x00000000#32)))
              shapeCasts_S1024_S1x1024)
            0x00000000#32 reduces_S1x1024_S1 (.inl rfl) rfl)
          shapeCasts_S1_S1x1) inpos_S1x1_p0_0
      = ∑ q : Fin 1024, entryOf (u (ix2 q 0)) (u (ix2 q 1)) (v (ix2 q 0)) (v (ix2 q 1)) (w (ix1 q)) 0 b := by
  refine (vectorSum_apply _ _ _ _ _ _ _).trans (Finset.sum_congr rfl fun q _ => ?_)
  show Scalar.select (m (ix1 q)) (k0_pay10 (F := Ideal) u v (ix1 q)) zeroW
    = Scalar.select (inBinOf (w (ix1 q)) b) (sqDistOf (u (ix2 q 0)) (u (ix2 q 1)) (v (ix2 q 0)) (v (ix2 q 1))) zeroW
  rw [hm q, sqDist_apply]

/-- Line 1: the squared modulus differences added over the rows whose radius lies in bin b. -/
theorem modDiffSum (m : IVec S1024 1) (b : Fin 4) (hm : ∀ q : Fin 1024, m (ix1 q) = inBinOf (w (ix1 q)) b) :
    extractAt ![0, 0]
        (shapeCast S1x1
          (multiReduction (F := Ideal) .add [1] S1
            (shapeCast S1x1024
              (select m (k0_pay11 (F := Ideal) u v) (broadcast S1024 (Scalar.ofBits (F := Ideal) .f32 0x00000000#32)))
              shapeCasts_S1024_S1x1024)
            0x00000000#32 reduces_S1x1024_S1 (.inl rfl) rfl)
          shapeCasts_S1_S1x1) inpos_S1x1_p0_0
      = ∑ q : Fin 1024, entryOf (u (ix2 q 0)) (u (ix2 q 1)) (v (ix2 q 0)) (v (ix2 q 1)) (w (ix1 q)) 1 b := by
  refine (vectorSum_apply _ _ _ _ _ _ _).trans (Finset.sum_congr rfl fun q _ => ?_)
  show Scalar.select (m (ix1 q)) (k0_pay11 (F := Ideal) u v (ix1 q)) zeroW
    = Scalar.select (inBinOf (w (ix1 q)) b) (modDiffOf (u (ix2 q 0)) (u (ix2 q 1)) (v (ix2 q 0)) (v (ix2 q 1))) zeroW
  rw [hm q, modDiff_apply]

/-- Line 2: the number of rows whose radius lies in bin b. -/
theorem countSum (m : IVec S1024 1) (b : Fin 4) (hm : ∀ q : Fin 1024, m (ix1 q) = inBinOf (w (ix1 q)) b) :
    extractAt ![0, 0]
        (shapeCast S1x1
          (multiReduction (F := Ideal) .add [1] S1
            (shapeCast S1x1024 (sitofp (F := Ideal) .f32 (extui 32 m natLt_1_32)) shapeCasts_S1024_S1x1024)
            0x00000000#32 reduces_S1x1024_S1 (.inl rfl) rfl)
          shapeCasts_S1_S1x1) inpos_S1x1_p0_0
      = ∑ q : Fin 1024, entryOf (u (ix2 q 0)) (u (ix2 q 1)) (v (ix2 q 0)) (v (ix2 q 1)) (w (ix1 q)) 2 b := by
  refine (vectorSum_apply _ _ _ _ _ _ _).trans (Finset.sum_congr rfl fun q _ => ?_)
  show ((((m (ix1 q)).setWidth 32).toInt : ℝ) : EReal) = ((((inBinOf (w (ix1 q)) b).setWidth 32).toInt : ℝ) : EReal)
  rw [hm q]

end Entry

/-! ## The table -/

/-- THE CHUNK'S STEP: entry (r, b) of the carried table after a chunk is the entry before plus the sum over the chunk's
    rows of the row's summand of line r, bin b. -/
theorem addChunk_apply (acc : FVec Ideal S3x4 .f32) (u v : FVec Ideal S1024x2 .f32) (w : FVec Ideal S1024 .f32)
    (r : Fin 3) (b : Fin 4) :
    Cert.KernelIdeal.Acc.addChunk (F := Ideal) acc u v w (ix2 r b)
      = acc (ix2 r b) + ∑ q : Fin 1024,
          entryOf (u (ix2 q 0)) (u (ix2 q 1)) (v (ix2 q 0)) (v (ix2 q 1)) (w (ix1 q)) r b := by
  unfold Cert.KernelIdeal.Acc.addChunk k0_pay3
  refine congrArg (fun t => acc (ix2 r b) + t) ?_
  refine (stack3_apply _ _ _ shapeCasts_S4_S1x4 concatenates_S1x4_S1x4_S1x4_S3x4_d0 r b).trans ?_
  match r with
  | ⟨0, _⟩ =>
    refine (stack4_apply _ _ _ _ concatenates_S1_S1_S1_S1_S4_d0 b).trans ?_
    match b with
    | ⟨0, _⟩ => refine sqDistSum u v w _ 0 ?_; exact fun _ => rfl
    | ⟨1, _⟩ => refine sqDistSum u v w _ 1 ?_; exact fun _ => rfl
    | ⟨2, _⟩ => refine sqDistSum u v w _ 2 ?_; exact fun _ => rfl
    | ⟨3, _⟩ => refine sqDistSum u v w _ 3 ?_; exact fun _ => rfl
  | ⟨1, _⟩ =>
    refine (stack4_apply _ _ _ _ concatenates_S1_S1_S1_S1_S4_d0 b).trans ?_
    match b with
    | ⟨0, _⟩ => refine modDiffSum u v w _ 0 ?_; exact fun _ => rfl
    | ⟨1, _⟩ => refine modDiffSum u v w _ 1 ?_; exact fun _ => rfl
    | ⟨2, _⟩ => refine modDiffSum u v w _ 2 ?_; exact fun _ => rfl
    | ⟨3, _⟩ => refine modDiffSum u v w _ 3 ?_; exact fun _ => rfl
  | ⟨2, _⟩ =>
    refine (stack4_apply _ _ _ _ concatenates_S1_S1_S1_S1_S4_d0 b).trans ?_
    match b with
    | ⟨0, _⟩ => refine countSum u v w _ 0 ?_; exact fun _ => rfl
    | ⟨1, _⟩ => refine countSum u v w _ 1 ?_; exact fun _ => rfl
    | ⟨2, _⟩ => refine countSum u v w _ 2 ?_; exact fun _ => rfl
    | ⟨3, _⟩ => refine countSum u v w _ 3 ?_; exact fun _ => rfl

end Cert.KernelIdeal.Chunk

end
-- ==== Proof.KernelValue.lean ====
/-
  The kernel's run, with its result at the specification's loss.

  After the region the output array holds, for each half of the rows, the table of the sums of the row summands over
  that half; the host lines add the two halves (from zero) and form the loss of the summed table.  Two consecutive
  halves of 8388608 rows are the 16777216 rows, so the summed table is the specification's table of totals and the
  result is the specification's loss of the three argument arrays, which the run leaves unchanged.
-/
import proofs.«117714_j24515673326163_2_alg».proof.Proof.OutputArray
import proofs.«117714_j24515673326163_2_alg».proof.Proof.HostTail
import proofs.«117714_j24515673326163_2_alg».proof.Proof.ChunkTable

set_option maxRecDepth 16384

noncomputable section

open scoped BigOperators

namespace Cert.KernelIdeal.KernelValue

open Cert.KernelIdeal Cert.KernelIdeal.Gen Cert.KernelIdeal.Grid Cert.KernelIdeal.Tail Cert.RadialLoss
open Idealize.ShloMosaic Idealize.ShloMosaic.TcCoe Idealize.ShloMosaic.ValueIdx Idealize.SL.Sem
open Idealize.ShloMosaic.Pipeline (Dat)

/-- One chunk's arithmetic over the extended reals, as the accumulation over the grid uses it. -/
theorem chunkFacts : ChunkFacts :=
  ⟨Cert.KernelIdeal.Chunk.addChunk_apply, Cert.KernelIdeal.Chunk.walkStart_apply, Cert.KernelIdeal.Chunk.zeroed_apply,
    Cert.KernelIdeal.Chunk.update_apply, Cert.KernelIdeal.Chunk.block_apply⟩

/-- Zero plus the sums over the two halves of the rows is the sum over all the rows. -/
theorem two_halves (f : ℕ → EReal) :
    zeroW + ∑ p : Fin 2, ∑ k ∈ Finset.range 8388608, f (p.val * 8388608 + k) = ∑ k ∈ Finset.range 16777216, f k := by
  show Ideal.ofBits .f32 0x00000000#32 + _ = _
  rw [Ideal.ofBits_zero_f32, zero_add, Fin.sum_univ_eq_sum_range (fun p => ∑ k ∈ Finset.range 8388608, f (p * 8388608 + k)) 2,
    ← TileSum.sum_range_tiles f 8388608 2]

variable (m : (ℓ : Loc nD τ sig) → Buf (Elt Ideal) ℓ) (ρ : Dev nD → PrngReg)

/-- The tail of the array of half sums is the specification's loss. -/
theorem value (c : Dev nD) (j : S_.Idx) :
    tailOf (F := Ideal) (halves m c) j = loss (argX m c) (argY m c) (argD m c) := by
  rw [tailOf_apply]
  unfold loss
  refine congrArg lossOf (funext fun r => funext fun b => ?_)
  unfold total
  rw [← two_halves]
  refine congrArg (zeroW + ·) (Finset.sum_congr rfl fun p _ => ?_)
  exact halfSum_eq m c p.val r b

/-- What the lines after the region leave in the result buffer. -/
theorem tail_value (c : Dev nD) :
    Pipeline.afterTail₀ cfgs (dats m) 0 (V0 m) [hostOps1, hostOps1_1, hostOps1_2] c main_v22 = tailOf (F := Ideal) (halves m c) := by
  unfold Pipeline.afterTail₀
  rw [after_tail]
  exact congrArg (tailOf (F := Ideal)) ((Pipeline.withArrays_arr spec0 launch0.win.arr_inj c _ _ 3).trans (final m chunkFacts c))

/-- THE KERNEL'S RUN: every weakly fair execution terminates with the result at the specification's loss of the
    arguments and the arguments unchanged. -/
theorem run : θ_run (defs (F := Ideal)) (onTc (τ := τ) (main (F := Ideal))) ⟨m, fun _ => 0, ρ⟩ fun r => ∀ c : Dev nD,
      r.2.mem ((c.tc : Thread nD τ).loc main_v22) = (fun _ => loss (argX m c) (argY m c) (argD m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v22 (Pipeline.mem_restRefs_of main_v22 rfl (by decide))).trans
        ((tail_value m c).trans (funext fun j => value m c j)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KernelValue

end
-- ==== Proof.RefTransport.lean ====
/-
  A typed reference made from a literal buffer carries the buffer's own type, so moving a value between the carried type
  and the buffer's type is the identity: stated with the carried type SPELT as the buffer's type, both transports are the
  value itself by computation, and the statement rewrites a transport at any literal buffer whose type computes to the
  carried one.
-/
import Idealize.ShloMosaic.Lib.StableHlo

namespace Idealize.ShloMosaic.StableHlo.TRef

variable {sig : RefSig} {Val : EltTy → Type}

/-- Contents read through a literal buffer's typed reference are the contents. -/
theorem ofBuf_of_self (r : Ref sig .tc) (h1 : r.ty = r.ty) (h2 : r.space ≠ .host) (h3 : r.isScoped = false)
    (v : r.ty.Contents Val) : (TRef.of (T := r.ty) r h1 h2 h3).ofBuf v = v := rfl

/-- Contents written through a literal buffer's typed reference are the contents. -/
theorem toBuf_of_self (r : Ref sig .tc) (h1 : r.ty = r.ty) (h2 : r.space ≠ .host) (h3 : r.isScoped = false)
    (v : r.ty.Contents Val) : (TRef.of (T := r.ty) r h1 h2 h3).toBuf v = v := rfl

end Idealize.ShloMosaic.StableHlo.TRef
-- ==== Proof.RefRows.lean ====
/-
  The reference's stages read at one row.  At row n the squared-distance stage is the squared distance of the points
  x[n] and y[n] (the sum over the two coordinates of the squared differences, from zero), the modulus stage the squared
  difference of their moduli, and each bin's mask the bin's bit of the radius d[n]; so each masked stage at row n is the
  specification's summand of that row, and a sum over all index vectors of the row axis is the sum over the row numbers.
-/
import proofs.«117714_j24515673326163_2_alg».proof.Proof.RefRead
import proofs.«117714_j24515673326163_2_alg».proof.Proof.Spec

noncomputable section

open scoped BigOperators

namespace Cert.ReferenceIdeal.RefValue

open Cert.ReferenceIdeal Cert.ReferenceIdeal.Read Idealize.ShloMosaic Idealize.ShloMosaic.ValueIdx Cert.RadialLoss

/-- The index vectors of the row axis are the row numbers. -/
def rowEquiv : S16777216.Idx ≃ Fin 16777216 where
  toFun j := j 0
  invFun n := ix1 n
  left_inv j := (eq_ix1 j).symm
  right_inv _ := rfl

variable (x y : (⟨S16777216x2, .f32⟩ : BufTy).Contents (Elt Ideal)) (d : (⟨S16777216, .f32⟩ : BufTy).Contents (Elt Ideal))

/-- A sum over the row axis whose term at row n is the specification's summand is the specification's total. -/
theorem sum_rows_total (f : S16777216.Idx → EReal) (r : Fin 3) (b : Fin 4)
    (h : ∀ n : Fin 16777216, f (ix1 n) = entry x y d r b n) : ∑ j : S16777216.Idx, f j = total x y d r b := by
  unfold total
  rw [← Fin.sum_univ_eq_sum_range (fun k => entryN x y d r b k) 16777216]
  refine Fintype.sum_equiv rowEquiv f _ fun j => ?_
  show f j = entryN x y d r b ((rowEquiv j : Fin 16777216) : ℕ)
  rw [entryN, dif_pos (rowEquiv j).isLt]
  exact (congrArg f (eq_ix1 j)).trans (h (rowEquiv j))

/-- Coordinate k of row n, as the reference's own index function spells it. -/
theorem idx_v2_0 (n : Fin 16777216) : idx_main_v2 (ix1 n) 0 = ix2 n 0 :=
  funext fun a => Fin.ext (by match a with | ⟨0, _⟩ => rfl | ⟨1, _⟩ => rfl)
theorem idx_v2_1 (n : Fin 16777216) : idx_main_v2 (ix1 n) 1 = ix2 n 1 :=
  funext fun a => Fin.ext (by match a with | ⟨0, _⟩ => rfl | ⟨1, _⟩ => rfl)

/-- The squared-distance stage at row n. -/
theorem row_sq (n : Fin 16777216) :
    val_main_v2 (F := Ideal) x y (ix1 n) = sqDistOf (x (ix2 n 0)) (x (ix2 n 1)) (y (ix2 n 0)) (y (ix2 n 1)) := by
  rw [val_main_v2_apply, Fin.sum_univ_two, idx_v2_0, idx_v2_1]
  show Ideal.ofBits .f32 0x00000000#32
      + ((x (ix2 n 0) - y (ix2 n 0)) * (x (ix2 n 0) - y (ix2 n 0)) + (x (ix2 n 1) - y (ix2 n 1)) * (x (ix2 n 1) - y (ix2 n 1))) = _
  rw [Ideal.ofBits_zero_f32, zero_add]
  rfl

theorem idx_v4_0 (n : Fin 16777216) : idx_main_v4 (ix1 n) 0 = ix2 n 0 :=
  funext fun a => Fin.ext (by match a with | ⟨0, _⟩ => rfl | ⟨1, _⟩ => rfl)
theorem idx_v4_1 (n : Fin 16777216) : idx_main_v4 (ix1 n) 1 = ix2 n 1 :=
  funext fun a => Fin.ext (by match a with | ⟨0, _⟩ => rfl | ⟨1, _⟩ => rfl)
theorem idx_v7_0 (n : Fin 16777216) : idx_main_v7 (ix1 n) 0 = ix2 n 0 :=
  funext fun a => Fin.ext (by match a with | ⟨0, _⟩ => rfl | ⟨1, _⟩ => rfl)
theorem idx_v7_1 (n : Fin 16777216) : idx_main_v7 (ix1 n) 1 = ix2 n 1 :=
  funext fun a => Fin.ext (by match a with | ⟨0, _⟩ => rfl | ⟨1, _⟩ => rfl)

/-- The sum of the squared coordinates of x[n]. -/
theorem row_norm_x (n : Fin 16777216) :
    val_main_v4 (F := Ideal) x (ix1 n) = x (ix2 n 0) * x (ix2 n 0) + x (ix2 n 1) * x (ix2 n 1) := by
  rw [val_main_v4_apply, Fin.sum_univ_two, idx_v4_0, idx_v4_1]
  show Ideal.ofBits .f32 0x00000000#32 + (x (ix2 n 0) * x (ix2 n 0) + x (ix2 n 1) * x (ix2 n 1)) = _
  rw [Ideal.ofBits_zero_f32, zero_add]

/-- The sum of the squared coordinates of y[n]. -/
theorem row_norm_y (n : Fin 16777216) :
    val_main_v7 (F := Ideal) y (ix1 n) = y (ix2 n 0) * y (ix2 n 0) + y (ix2 n 1) * y (ix2 n 1) := by
  rw [val_main_v7_apply, Fin.sum_univ_two, idx_v7_0, idx_v7_1]
  show Ideal.ofBits .f32 0x00000000#32 + (y (ix2 n 0) * y (ix2 n 0) + y (ix2 n 1) * y (ix2 n 1)) = _
  rw [Ideal.ofBits_zero_f32, zero_add]

/-- The modulus stage at row n: the squared difference of the moduli of x[n] and y[n]. -/
theorem row_mod (n : Fin 16777216) :
    val_main_v10 (F := Ideal) x y (ix1 n) = modDiffOf (x (ix2 n 0)) (x (ix2 n 1)) (y (ix2 n 0)) (y (ix2 n 1)) := by
  rw [val_main_v10_apply, val_main_v9_apply, val_main_v5_apply, val_main_v8_apply, row_norm_x, row_norm_y]
  rfl

/-- Bin 0's mask at row n is the bin's bit of the radius d[n]. -/
theorem mask_0 (n : Fin 16777216) : val_main_v15 (F := Ideal) d (ix1 n) = inBinOf (d (ix1 n)) 0 := by
  rw [val_main_v15_apply, val_main_v12_apply, val_main_v14_apply, val_main_v11_apply, val_main_v13_apply]
  rfl

/-- Bin 0's masked squared distance at row n is the specification's summand of line 0. -/
theorem row_D_0 (n : Fin 16777216) : val_main_v18 (F := Ideal) x y d (ix1 n) = entry x y d 0 0 n := by
  rw [val_main_v18_apply, row_sq, mask_0, val_main_call0_v1_apply]
  rfl

/-- Bin 0's masked squared modulus difference at row n is the specification's summand of line 1. -/
theorem row_A_0 (n : Fin 16777216) : val_main_v24 (F := Ideal) x y d (ix1 n) = entry x y d 1 0 n := by
  rw [val_main_v24_apply, row_mod, mask_0, val_main_call1_v1_apply]
  rfl

/-- Bin 0's mask bit at row n, widened and read as a real, is the specification's summand of line 2. -/
theorem row_C_0 (n : Fin 16777216) :
    ((((val_main_v15 (F := Ideal) d (ix1 n)).setWidth 32).toInt : ℝ) : EReal) = entry x y d 2 0 n := by
  rw [mask_0]
  rfl

/-- Bin 1's mask at row n is the bin's bit of the radius d[n]. -/
theorem mask_1 (n : Fin 16777216) : val_main_v38 (F := Ideal) d (ix1 n) = inBinOf (d (ix1 n)) 1 := by
  rw [val_main_v38_apply, val_main_v35_apply, val_main_v37_apply, val_main_v34_apply, val_main_v36_apply]
  rfl

/-- Bin 1's masked squared distance at row n is the specification's summand of line 0. -/
theorem row_D_1 (n : Fin 16777216) : val_main_v41 (F := Ideal) x y d (ix1 n) = entry x y d 0 1 n := by
  rw [val_main_v41_apply, row_sq, mask_1, val_main_call3_v1_apply]
  rfl

/-- Bin 1's masked squared modulus difference at row n is the specification's summand of line 1. -/
theorem row_A_1 (n : Fin 16777216) : val_main_v47 (F := Ideal) x y d (ix1 n) = entry x y d 1 1 n := by
  rw [val_main_v47_apply, row_mod, mask_1, val_main_call4_v1_apply]
  rfl

/-- Bin 1's mask bit at row n, widened and read as a real, is the specification's summand of line 2. -/
theorem row_C_1 (n : Fin 16777216) :
    ((((val_main_v38 (F := Ideal) d (ix1 n)).setWidth 32).toInt : ℝ) : EReal) = entry x y d 2 1 n := by
  rw [mask_1]
  rfl

/-- Bin 2's mask at row n is the bin's bit of the radius d[n]. -/
theorem mask_2 (n : Fin 16777216) : val_main_v61 (F := Ideal) d (ix1 n) = inBinOf (d (ix1 n)) 2 := by
  rw [val_main_v61_apply, val_main_v58_apply, val_main_v60_apply, val_main_v57_apply, val_main_v59_apply]
  rfl

/-- Bin 2's masked squared distance at row n is the specification's summand of line 0. -/
theorem row_D_2 (n : Fin 16777216) : val_main_v64 (F := Ideal) x y d (ix1 n) = entry x y d 0 2 n := by
  rw [val_main_v64_apply, row_sq, mask_2, val_main_call6_v1_apply]
  rfl

/-- Bin 2's masked squared modulus difference at row n is the specification's summand of line 1. -/
theorem row_A_2 (n : Fin 16777216) : val_main_v70 (F := Ideal) x y d (ix1 n) = entry x y d 1 2 n := by
  rw [val_main_v70_apply, row_mod, mask_2, val_main_call7_v1_apply]
  rfl

/-- Bin 2's mask bit at row n, widened and read as a real, is the specification's summand of line 2. -/
theorem row_C_2 (n : Fin 16777216) :
    ((((val_main_v61 (F := Ideal) d (ix1 n)).setWidth 32).toInt : ℝ) : EReal) = entry x y d 2 2 n := by
  rw [mask_2]
  rfl

/-- Bin 3's mask at row n is the bin's bit of the radius d[n]. -/
theorem mask_3 (n : Fin 16777216) : val_main_v84 (F := Ideal) d (ix1 n) = inBinOf (d (ix1 n)) 3 := by
  rw [val_main_v84_apply, val_main_v81_apply, val_main_v83_apply, val_main_v80_apply, val_main_v82_apply]
  rfl

/-- Bin 3's masked squared distance at row n is the specification's summand of line 0. -/
theorem row_D_3 (n : Fin 16777216) : val_main_v87 (F := Ideal) x y d (ix1 n) = entry x y d 0 3 n := by
  rw [val_main_v87_apply, row_sq, mask_3, val_main_call9_v1_apply]
  rfl

/-- Bin 3's masked squared modulus difference at row n is the specification's summand of line 1. -/
theorem row_A_3 (n : Fin 16777216) : val_main_v93 (F := Ideal) x y d (ix1 n) = entry x y d 1 3 n := by
  rw [val_main_v93_apply, row_mod, mask_3, val_main_call10_v1_apply]
  rfl

/-- Bin 3's mask bit at row n, widened and read as a real, is the specification's summand of line 2. -/
theorem row_C_3 (n : Fin 16777216) :
    ((((val_main_v84 (F := Ideal) d (ix1 n)).setWidth 32).toInt : ℝ) : EReal) = entry x y d 2 3 n := by
  rw [mask_3]
  rfl

end Cert.ReferenceIdeal.RefValue

end
-- ==== Proof.RefCount.lean ====
/-
  Counting by an integer sum.  Adding, in 32-bit words from zero, one widened bit per index gives the word of the number n
  of indices whose bit is one.  When n is at most 2^24 nothing wraps: doubling the word, taking the larger of it and one,
  testing it against zero and reading it as a real number agree with the same steps on the extended real n, so the
  reference's integer spelling of one bin's share of the loss is the specification's float spelling.
-/
import Idealize.ShloMosaic.PureOps.Ideal
import Idealize.ShloMosaic.PureOps.Ideal.Laws
import Idealize.ShloMosaic.PureOps.Reduce
import proofs.«117714_j24515673326163_2_alg».proof.Proof.Spec

noncomputable section

open scoped BigOperators

namespace Cert.ReferenceIdeal.RefCount

open Idealize.ShloMosaic

/-- A bit widened to a word is the word 0 or 1. -/
theorem toNat_setWidth_le_one (b : BitVec 1) : (b.setWidth 32).toNat ≤ 1 := by
  rcases BitVec.eq_zero_or_eq_one b with rfl | rfl <;> decide

/-- A widened bit read as a signed integer is its value as a natural number. -/
theorem toInt_setWidth (b : BitVec 1) : ((b.setWidth 32).toInt : ℤ) = ((b.setWidth 32).toNat : ℤ) := by
  rcases BitVec.eq_zero_or_eq_one b with rfl | rfl <;> decide

/-- Word addition folded from zero over a finite set is the word of the sum of the words' values. -/
theorem fold_addi {ι : Type} (S : Finset ι) (g : ι → BitVec 32) :
    S.fold IntOp.addi 0#32 g = BitVec.ofNat 32 (∑ i ∈ S, (g i).toNat) := by
  classical
  induction S using Finset.induction_on with
  | empty => rfl
  | insert a S ha ih =>
    rw [Finset.fold_insert ha, Finset.sum_insert ha, ih]
    apply BitVec.eq_of_toNat_eq
    simp only [IntOp.addi, BitVec.toNat_add, BitVec.toNat_ofNat]
    omega

/-- The sum of widened bits over a finite set is at most the set's size. -/
theorem sum_bits_le {ι : Type} (S : Finset ι) (β : ι → BitVec 1) :
    ∑ i ∈ S, ((β i).setWidth 32).toNat ≤ S.card := by
  have h := Finset.sum_le_card_nsmul S (fun i => ((β i).setWidth 32).toNat) 1 (fun i _ => toNat_setWidth_le_one (β i))
  simpa using h

/-- The word of a small number, doubled. -/
theorem muli_two (n : ℕ) : IntOp.muli 2#32 (BitVec.ofNat 32 n) = BitVec.ofNat 32 (2 * n) := by
  apply BitVec.eq_of_toNat_eq
  simp only [IntOp.muli, BitVec.toNat_mul, BitVec.toNat_ofNat]
  omega

/-- The word of a number below 2^31 read as a signed integer is the number. -/
theorem toInt_ofNat_small (k : ℕ) (hk : k < 2147483648) : (BitVec.ofNat 32 k).toInt = (k : ℤ) := by
  rw [BitVec.toInt_eq_toNat_cond, BitVec.toNat_ofNat]
  have : k % 2 ^ 32 = k := Nat.mod_eq_of_lt (by omega)
  rw [this]
  split <;> omega

/-- The larger of the word of a number below 2^31 and the word one. -/
theorem maxsi_one (k : ℕ) (hk : k < 2147483648) : IntOp.maxsi (BitVec.ofNat 32 k) 1#32 = BitVec.ofNat 32 (max k 1) := by
  unfold IntOp.maxsi
  rw [BitVec.slt, toInt_ofNat_small k hk]
  by_cases h : 1 < k
  · rw [if_pos (by simpa using h), max_eq_left (by omega)]
  · rw [if_neg (by simpa using h), max_eq_right (by omega)]

/-- The word of a number below 2^31 is greater than the word zero exactly when the number is positive. -/
theorem cmpi_sgt_zero (n : ℕ) (hn : n < 2147483648) :
    IntOp.cmpi .sgt (BitVec.ofNat 32 n) 0#32 = BitVec.ofBool (decide (0 < n)) := by
  unfold IntOp.cmpi
  simp only [BitVec.slt, toInt_ofNat_small n hn]
  congr 1
  simp

/-- The extended real of a finite sum of reals is the sum of the extended reals. -/
theorem coe_sum {ι : Type} (S : Finset ι) (a : ι → ℝ) : ((∑ j ∈ S, a j : ℝ) : EReal) = ∑ j ∈ S, (a j : EReal) := by
  classical
  induction S using Finset.induction_on with
  | empty => simp
  | insert i S hi ih => rw [Finset.sum_insert hi, Finset.sum_insert hi, EReal.coe_add, ih]

/-- The widened bits read as signed integers and summed as extended reals: the extended real of their sum as a natural number. -/
theorem sum_toInt_bits {ι : Type} [Fintype ι] (β : ι → BitVec 1) :
    ∑ j, ((((β j).setWidth 32).toInt : ℝ) : EReal) = (((∑ j, ((β j).setWidth 32).toNat : ℕ) : ℝ) : EReal) := by
  rw [Nat.cast_sum, coe_sum]
  refine Finset.sum_congr rfl fun j _ => ?_
  rw [toInt_setWidth, Int.cast_natCast]

/-- The f32 word of one. -/
theorem ofBits_one : Ideal.ofBits .f32 0x3F800000#32 = ((1 : ℝ) : EReal) := by
  simp [Ideal.ofBits, Ideal.ieee]
  norm_cast
  norm_num

/-- The f32 word of two. -/
theorem ofBits_two : Ideal.ofBits .f32 0x40000000#32 = ((2 : ℝ) : EReal) := by
  simp [Ideal.ofBits, Ideal.ieee]
  norm_cast
  norm_num

/-- One bin's share of the loss in the reference's spelling — the count an integer word, doubled, bounded below by one and
    tested against zero as words, then read as a real — is the specification's share at the count as an extended real. -/
theorem binLoss_of_count (D A : EReal) (n : ℕ) (hn : n ≤ 16777216) :
    Scalar.select (IntOp.cmpi .sgt (BitVec.ofNat 32 n) 0#32)
        (Ideal.div D (((IntOp.maxsi (IntOp.muli 2#32 (BitVec.ofNat 32 n)) 1#32).toInt : ℝ) : EReal)
          + Ideal.ofBits .f32 0x3DCCCCCD#32 * Ideal.div A (((IntOp.maxsi (BitVec.ofNat 32 n) 1#32).toInt : ℝ) : EReal))
        (Ideal.ofBits .f32 0x00000000#32)
      = Cert.RadialLoss.binLoss D A ((n : ℝ) : EReal) := by
  rw [muli_two, maxsi_one (2 * n) (by omega), maxsi_one n (by omega), toInt_ofNat_small _ (by omega),
    toInt_ofNat_small _ (by omega), cmpi_sgt_zero n (by omega)]
  unfold Cert.RadialLoss.binLoss Cert.RadialLoss.zeroW
  rw [ofBits_one, ofBits_two, Ideal.ofBits_zero_f32]
  have hcmp : Ideal.cmp .ogt ((n : ℝ) : EReal) 0 = BitVec.ofBool (decide (0 < n)) := by
    unfold Ideal.cmp
    congr 1
    simp
  have h2 : max (((2 : ℝ) : EReal) * ((n : ℝ) : EReal)) ((1 : ℝ) : EReal) = (((max (2 * n) 1 : ℕ) : ℤ) : ℝ) := by
    rw [← EReal.coe_mul, ← EReal.coe_strictMono.monotone.map_max]
    push_cast
    rfl
  have h1 : max ((n : ℝ) : EReal) ((1 : ℝ) : EReal) = (((max n 1 : ℕ) : ℤ) : ℝ) := by
    rw [← EReal.coe_strictMono.monotone.map_max]
    push_cast
    rfl
  rw [hcmp, h2, h1]

end Cert.ReferenceIdeal.RefCount

end
-- ==== Proof.RefTotals.lean ====
/-
  The reference's totals.  Each of its sums over the row axis is the specification's total of that line and bin; its
  integer count of a bin, a fold of word addition over the widened mask bits, is the word of the number of the bin's rows,
  which is at most the number of rows 2^24; so each bin's share of the loss, computed with the count doubled, bounded
  below by one and tested against zero as integer words, is the specification's share of the bin's three totals.
-/
import proofs.«117714_j24515673326163_2_alg».proof.Proof.RefRows
import proofs.«117714_j24515673326163_2_alg».proof.Proof.RefCount

noncomputable section

open scoped BigOperators

namespace Cert.ReferenceIdeal.RefValue

open Cert.ReferenceIdeal Cert.ReferenceIdeal.Gen Cert.ReferenceIdeal.Read Idealize.ShloMosaic Idealize.ShloMosaic.ValueIdx Cert.RadialLoss

/-- The number of rows whose mask bit is one. -/
def countOf (β : S16777216.Idx → BitVec 1) : ℕ := ∑ j : S16777216.Idx, ((β j).setWidth 32).toNat

/-- It is at most the number of rows. -/
theorem countOf_le (β : S16777216.Idx → BitVec 1) : countOf β ≤ 16777216 := by
  have h := RefCount.sum_bits_le Finset.univ β
  rw [Finset.card_univ, Fintype.card_congr rowEquiv, Fintype.card_fin] at h
  exact h

/-- The integer sum of the widened mask bits over the row axis, from the zero word, is the word of that number. -/
theorem reduce_addi_bits (β : S16777216.Idx → BitVec 1) (i : S_.Idx) :
    Host.reduce IntOp.addi (extui 32 β natLt_1_32) (constantI S_ 32 0#32) reducesTo_S16777216_S_d0 h_S_ i
      = BitVec.ofNat 32 (countOf β) := by
  rw [Host.reduce_eq_fold, Finset.filter_true_of_mem (fun j _ => funext fun a => a.elim0)]
  exact RefCount.fold_addi Finset.univ _

variable (x y : (⟨S16777216x2, .f32⟩ : BufTy).Contents (Elt Ideal)) (d : (⟨S16777216, .f32⟩ : BufTy).Contents (Elt Ideal))

/-- Bin 0's total of squared distances. -/
theorem total_D_0 (i : S_.Idx) : val_main_v19 (F := Ideal) x y d i = total x y d 0 0 := by
  rw [val_main_v19_apply, sum_rows_total x y d (val_main_v18 (F := Ideal) x y d) 0 0 (row_D_0 x y d)]
  show Ideal.ofBits .f32 0x00000000#32 + _ = _
  rw [Ideal.ofBits_zero_f32, zero_add]

/-- Bin 0's total of squared modulus differences. -/
theorem total_A_0 (i : S_.Idx) : val_main_v25 (F := Ideal) x y d i = total x y d 1 0 := by
  rw [val_main_v25_apply, sum_rows_total x y d (val_main_v24 (F := Ideal) x y d) 1 0 (row_A_0 x y d)]
  show Ideal.ofBits .f32 0x00000000#32 + _ = _
  rw [Ideal.ofBits_zero_f32, zero_add]

/-- Bin 0's integer count is the word of the number of its rows. -/
theorem cnt_0 (i : S_.Idx) :
    val_main_v17 (F := Ideal) d i = BitVec.ofNat 32 (countOf (val_main_v15 (F := Ideal) d)) := by
  unfold val_main_v17 val_main_v16
  exact reduce_addi_bits (val_main_v15 (F := Ideal) d) i

/-- The specification's count of bin 0 is the number of its rows. -/
theorem total_C_0 : total x y d 2 0 = (((countOf (val_main_v15 (F := Ideal) d) : ℕ) : ℝ) : EReal) := by
  rw [← sum_rows_total x y d (fun j => ((((val_main_v15 (F := Ideal) d j).setWidth 32).toInt : ℝ) : EReal)) 2 0
    (row_C_0 x y d)]
  exact RefCount.sum_toInt_bits _

/-- Bin 0's share of the loss, as the reference computes it, is the specification's share of the bin's three totals. -/
theorem share_0 (i : S_.Idx) :
    val_main_v32 (F := Ideal) x y d i = binLoss (total x y d 0 0) (total x y d 1 0) (total x y d 2 0) := by
  rw [val_main_v32_apply, val_main_v29_apply, val_main_v31_apply, val_main_v23_apply, val_main_v30_apply,
    val_main_v28_apply, val_main_v22_apply, val_main_v27_apply, val_main_v21_apply, val_main_v26_apply,
    val_main_v20_apply, cnt_0, total_D_0, total_A_0, total_C_0]
  exact RefCount.binLoss_of_count _ _ _ (countOf_le _)

/-- Bin 1's total of squared distances. -/
theorem total_D_1 (i : S_.Idx) : val_main_v42 (F := Ideal) x y d i = total x y d 0 1 := by
  rw [val_main_v42_apply, sum_rows_total x y d (val_main_v41 (F := Ideal) x y d) 0 1 (row_D_1 x y d)]
  show Ideal.ofBits .f32 0x00000000#32 + _ = _
  rw [Ideal.ofBits_zero_f32, zero_add]

/-- Bin 1's total of squared modulus differences. -/
theorem total_A_1 (i : S_.Idx) : val_main_v48 (F := Ideal) x y d i = total x y d 1 1 := by
  rw [val_main_v48_apply, sum_rows_total x y d (val_main_v47 (F := Ideal) x y d) 1 1 (row_A_1 x y d)]
  show Ideal.ofBits .f32 0x00000000#32 + _ = _
  rw [Ideal.ofBits_zero_f32, zero_add]

/-- Bin 1's integer count is the word of the number of its rows. -/
theorem cnt_1 (i : S_.Idx) :
    val_main_v40 (F := Ideal) d i = BitVec.ofNat 32 (countOf (val_main_v38 (F := Ideal) d)) := by
  unfold val_main_v40 val_main_v39
  exact reduce_addi_bits (val_main_v38 (F := Ideal) d) i

/-- The specification's count of bin 1 is the number of its rows. -/
theorem total_C_1 : total x y d 2 1 = (((countOf (val_main_v38 (F := Ideal) d) : ℕ) : ℝ) : EReal) := by
  rw [← sum_rows_total x y d (fun j => ((((val_main_v38 (F := Ideal) d j).setWidth 32).toInt : ℝ) : EReal)) 2 1
    (row_C_1 x y d)]
  exact RefCount.sum_toInt_bits _

/-- Bin 1's share of the loss, as the reference computes it, is the specification's share of the bin's three totals. -/
theorem share_1 (i : S_.Idx) :
    val_main_v55 (F := Ideal) x y d i = binLoss (total x y d 0 1) (total x y d 1 1) (total x y d 2 1) := by
  rw [val_main_v55_apply, val_main_v52_apply, val_main_v54_apply, val_main_v46_apply, val_main_v53_apply,
    val_main_v51_apply, val_main_v45_apply, val_main_v50_apply, val_main_v44_apply, val_main_v49_apply,
    val_main_v43_apply, cnt_1, total_D_1, total_A_1, total_C_1]
  exact RefCount.binLoss_of_count _ _ _ (countOf_le _)

/-- Bin 2's total of squared distances. -/
theorem total_D_2 (i : S_.Idx) : val_main_v65 (F := Ideal) x y d i = total x y d 0 2 := by
  rw [val_main_v65_apply, sum_rows_total x y d (val_main_v64 (F := Ideal) x y d) 0 2 (row_D_2 x y d)]
  show Ideal.ofBits .f32 0x00000000#32 + _ = _
  rw [Ideal.ofBits_zero_f32, zero_add]

/-- Bin 2's total of squared modulus differences. -/
theorem total_A_2 (i : S_.Idx) : val_main_v71 (F := Ideal) x y d i = total x y d 1 2 := by
  rw [val_main_v71_apply, sum_rows_total x y d (val_main_v70 (F := Ideal) x y d) 1 2 (row_A_2 x y d)]
  show Ideal.ofBits .f32 0x00000000#32 + _ = _
  rw [Ideal.ofBits_zero_f32, zero_add]

/-- Bin 2's integer count is the word of the number of its rows. -/
theorem cnt_2 (i : S_.Idx) :
    val_main_v63 (F := Ideal) d i = BitVec.ofNat 32 (countOf (val_main_v61 (F := Ideal) d)) := by
  unfold val_main_v63 val_main_v62
  exact reduce_addi_bits (val_main_v61 (F := Ideal) d) i

/-- The specification's count of bin 2 is the number of its rows. -/
theorem total_C_2 : total x y d 2 2 = (((countOf (val_main_v61 (F := Ideal) d) : ℕ) : ℝ) : EReal) := by
  rw [← sum_rows_total x y d (fun j => ((((val_main_v61 (F := Ideal) d j).setWidth 32).toInt : ℝ) : EReal)) 2 2
    (row_C_2 x y d)]
  exact RefCount.sum_toInt_bits _

/-- Bin 2's share of the loss, as the reference computes it, is the specification's share of the bin's three totals. -/
theorem share_2 (i : S_.Idx) :
    val_main_v78 (F := Ideal) x y d i = binLoss (total x y d 0 2) (total x y d 1 2) (total x y d 2 2) := by
  rw [val_main_v78_apply, val_main_v75_apply, val_main_v77_apply, val_main_v69_apply, val_main_v76_apply,
    val_main_v74_apply, val_main_v68_apply, val_main_v73_apply, val_main_v67_apply, val_main_v72_apply,
    val_main_v66_apply, cnt_2, total_D_2, total_A_2, total_C_2]
  exact RefCount.binLoss_of_count _ _ _ (countOf_le _)

/-- Bin 3's total of squared distances. -/
theorem total_D_3 (i : S_.Idx) : val_main_v88 (F := Ideal) x y d i = total x y d 0 3 := by
  rw [val_main_v88_apply, sum_rows_total x y d (val_main_v87 (F := Ideal) x y d) 0 3 (row_D_3 x y d)]
  show Ideal.ofBits .f32 0x00000000#32 + _ = _
  rw [Ideal.ofBits_zero_f32, zero_add]

/-- Bin 3's total of squared modulus differences. -/
theorem total_A_3 (i : S_.Idx) : val_main_v94 (F := Ideal) x y d i = total x y d 1 3 := by
  rw [val_main_v94_apply, sum_rows_total x y d (val_main_v93 (F := Ideal) x y d) 1 3 (row_A_3 x y d)]
  show Ideal.ofBits .f32 0x00000000#32 + _ = _
  rw [Ideal.ofBits_zero_f32, zero_add]

/-- Bin 3's integer count is the word of the number of its rows. -/
theorem cnt_3 (i : S_.Idx) :
    val_main_v86 (F := Ideal) d i = BitVec.ofNat 32 (countOf (val_main_v84 (F := Ideal) d)) := by
  unfold val_main_v86 val_main_v85
  exact reduce_addi_bits (val_main_v84 (F := Ideal) d) i

/-- The specification's count of bin 3 is the number of its rows. -/
theorem total_C_3 : total x y d 2 3 = (((countOf (val_main_v84 (F := Ideal) d) : ℕ) : ℝ) : EReal) := by
  rw [← sum_rows_total x y d (fun j => ((((val_main_v84 (F := Ideal) d j).setWidth 32).toInt : ℝ) : EReal)) 2 3
    (row_C_3 x y d)]
  exact RefCount.sum_toInt_bits _

/-- Bin 3's share of the loss, as the reference computes it, is the specification's share of the bin's three totals. -/
theorem share_3 (i : S_.Idx) :
    val_main_v101 (F := Ideal) x y d i = binLoss (total x y d 0 3) (total x y d 1 3) (total x y d 2 3) := by
  rw [val_main_v101_apply, val_main_v98_apply, val_main_v100_apply, val_main_v92_apply, val_main_v99_apply,
    val_main_v97_apply, val_main_v91_apply, val_main_v96_apply, val_main_v90_apply, val_main_v95_apply,
    val_main_v89_apply, cnt_3, total_D_3, total_A_3, total_C_3]
  exact RefCount.binLoss_of_count _ _ _ (countOf_le _)

end Cert.ReferenceIdeal.RefValue

end
-- ==== Proof.ReferenceValue.lean ====
/-
  The reference's result read as a function of its three argument arrays.  Its last stage adds the four bins' shares to
  zero, one after the other; each share is the specification's share of the bin's three totals, so the sum is the
  specification's loss, whatever the (one) index it is read at.  Every weakly fair execution of the reference therefore
  ends with its result buffer holding the loss of the argument arrays, and the arguments unchanged.
-/
import proofs.«117714_j24515673326163_2_alg».proof.Proof.RefRun
import proofs.«117714_j24515673326163_2_alg».proof.Proof.RefTotals

noncomputable section

open scoped BigOperators

namespace Cert.ReferenceIdeal.RefValue

open Cert.ReferenceIdeal Idealize.ShloMosaic Idealize.ShloMosaic.TcCoe Idealize.SL.Sem
open Cert.ReferenceIdeal.Read Cert.RadialLoss

/-- The reference's last stage is the loss, at every index. -/
theorem value (x y : (⟨S16777216x2, .f32⟩ : BufTy).Contents (Elt Ideal)) (d : (⟨S16777216, .f32⟩ : BufTy).Contents (Elt Ideal)) :
    val_main_v102 (F := Ideal) x y d = fun _ => loss x y d := by
  funext i
  rw [val_main_v102_apply, val_main_v79_apply, val_main_v56_apply, val_main_v33_apply, share_0, share_1, share_2, share_3,
    val_main_cst_14_apply]
  unfold loss lossOf
  simp only [Fin.sum_univ_four, Ideal.addf_def, Ideal.ofBits_def, add_assoc]

/-- Every weakly fair execution of the reference ends with its result buffer at the loss of the argument arrays and the
    argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v102)
          = (fun _ => Cert.RadialLoss.loss (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c).1.trans ((Read.val_main_v102_eq m c).trans (value _ _ _)), (h c).2⟩)
    (Cert.ReferenceIdeal.Value.run (F := Ideal) m ρ)

end Cert.ReferenceIdeal.RefValue

end
-- ==== Proof.lean ====
/-
  The certificate of the radial-bin loss kernel against its jnp reference, over the extended reals.

  Both programs compute one function of the three argument arrays (N = 16777216 pairs of plane points x, y and a radius
  per pair): for each of four radius bins the totals over the bin's rows of |x - y|^2, of (|x| - |y|)^2 and of the
  row count, and from them the loss  sum over non-empty bins of  D / max(2 C, 1) + 0.1 * A / max(C, 1)
  (Proof/Spec.lean states it).  The kernel takes the totals tile by tile — 2048 grid points of 8192 rows, each walked in
  eight chunks of 1024, accumulated per half of the grid, the two halves added on the host — and counts in floating
  point; the reference takes each total as one sum over all rows and counts in 32-bit integers.  Over the extended reals
  addition is commutative and associative, so the order and grouping of the sums do not matter, and the count, a natural
  number at most 2^24, is the same number in both spellings (twice it is below 2^31: the integer arithmetic never wraps).
  No finiteness of the inputs is used.

  The frames of the two kernel programs are the generated ones; the reference's frame is its run with the result
  dropped; the idealization rewrote nothing.
-/
import proofs.«117714_j24515673326163_2_alg».proof.Defs
import proofs.«117714_j24515673326163_2_alg».proof.Proof.Gen.Kernel
import proofs.«117714_j24515673326163_2_alg».proof.Proof.Gen.Kernel.Frame
import proofs.«117714_j24515673326163_2_alg».proof.Proof.Gen.KernelIdeal
import proofs.«117714_j24515673326163_2_alg».proof.Proof.Gen.KernelIdeal.Frame
import proofs.«117714_j24515673326163_2_alg».proof.Proof.Gen.ReferenceIdeal
import proofs.«117714_j24515673326163_2_alg».proof.Proof.Gen.Pre_finite_inputs
import proofs.«117714_j24515673326163_2_alg».proof.Proof.KernelValue
import proofs.«117714_j24515673326163_2_alg».proof.Proof.ReferenceValue

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- Over the extended reals both programs end with the specification's loss of their arguments, which agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
